-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S32x64 : Shape := ⟨2, ![32, 64]⟩
abbrev S32 : Shape := ⟨1, ![32]⟩
abbrev S48x32 : Shape := ⟨2, ![48, 32]⟩
abbrev S48 : Shape := ⟨1, ![48]⟩
abbrev S64x48 : Shape := ⟨2, ![64, 48]⟩
abbrev S64 : Shape := ⟨1, ![64]⟩
abbrev S32x32 : Shape := ⟨2, ![32, 32]⟩
abbrev S10x32 : Shape := ⟨2, ![10, 32]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S48x32 : S_.BroadcastsInDim S48x32 (![] : Fin 0 → Fin S48x32.rank)
  reducesTo_S48x32_S_d0_1 : S48x32.ReducesTo [0, 1] S_
  bcast_S_S48 : S_.BroadcastsInDim S48 (![] : Fin 0 → Fin S48.rank)
  reducesTo_S48_S_d0 : S48.ReducesTo [0] S_
  bcast_S_S64x48 : S_.BroadcastsInDim S64x48 (![] : Fin 0 → Fin S64x48.rank)
  reducesTo_S64x48_S_d0_1 : S64x48.ReducesTo [0, 1] S_
  bcast_S_S64 : S_.BroadcastsInDim S64 (![] : Fin 0 → Fin S64.rank)
  reducesTo_S64_S_d0 : S64.ReducesTo [0] S_
  bcast_S_S32x32 : S_.BroadcastsInDim S32x32 (![] : Fin 0 → Fin S32x32.rank)
  reducesTo_S32x32_S_d0_1 : S32x32.ReducesTo [0, 1] S_
  bcast_S_S10x32 : S_.BroadcastsInDim S10x32 (![] : Fin 0 → Fin S10x32.rank)
  reducesTo_S10x32_S_d0_1 : S10x32.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10x32 .f32) (main_arg17 : FVec F S10 .f32) (main_v63 : IVec S_ 1) (main_v67 : IVec S_ 1) : IVec S_ 1 :=
  let main_v68 : IVec S_ 1 := andi main_v63 main_v67
  let main_v69 : FVec F S10x32 .f32 := Host.absf main_arg16
  let main_cst_26 : FVec F S_ .f32 := constant S_ .f32 0x7F800000#32
  let main_v70 : FVec F S10x32 .f32 := broadcastInDim S10x32 ![] bcast_S_S10x32 main_cst_26
  let main_v71 : IVec S10x32 1 := cmpf .olt main_v69 main_v70
  let main_c_27 : IVec S_ 1 := constantI S_ 1 1#1
  let main_v72 : IVec S_ 1 := (fun x v => Host.reduce IntOp.andi x v reducesTo_S10x32_S_d0_1 h_S_) main_v71 main_c_27
  let main_v73 : IVec S_ 1 := andi main_v68 main_v72
  let main_v74 : FVec F S10 .f32 := Host.absf main_arg17
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg13 : FVec F S32 .f32) (main_arg14 : FVec F S32x32 .f32) (main_arg15 : FVec F S32 .f32) (main_arg16 : FVec F S10x32 .f32) (main_arg17 : FVec F S10 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg14
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_v63 main_v67

def fn_part2 {F : FTy → Type} [FloatOps F] (main_arg9 : FVec F S64x48 .f32) (main_arg10 : FVec F S64 .f32) (main_arg11 : FVec F S64x48 .f32) (main_arg12 : FVec F S32x64 .f32) (main_arg13 : FVec F S32 .f32) (main_arg14 : FVec F S32x32 .f32) (main_arg15 : FVec F S32 .f32) (main_arg16 : FVec F S10x32 .f32) (main_arg17 : FVec F S10 .f32) (main_v33 : IVec S_ 1) : IVec S_ 1 :=
  let main_v34 : FVec F S64x48 .f32 := Host.absf main_arg9
  let main_cst_12 : FVec F S_ .f32 := constant S_ .f32 0x7F800000#32
  let main_v35 : FVec F S64x48 .f32 := broadcastInDim S64x48 ![] bcast_S_S64x48 main_cst_12
  let main_v36 : IVec S64x48 1 := cmpf .olt main_v34 main_v35
  let main_c_13 : IVec S_ 1 := constantI S_ 1 1#1
  let main_v37 : IVec S_ 1 := (fun x v => Host.reduce IntOp.andi x v reducesTo_S64x48_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x48 .f32 := Host.absf main_arg11
  let main_cst_16 : FVec F S_ .f32 := constant S_ .f32 0x7F800000#32
  let main_v45 : FVec F S64x48 .f32 := broadcastInDim S64x48 ![] bcast_S_S64x48 main_cst_16
  let main_v46 : IVec S64x48 1 := cmpf .olt main_v44 main_v45
  let main_c_17 : IVec S_ 1 := constantI S_ 1 1#1
  let main_v47 : IVec S_ 1 := (fun x v => Host.reduce IntOp.andi x v reducesTo_S64x48_S_d0_1 h_S_) main_v46 main_c_17
  let main_v48 : IVec S_ 1 := andi main_v43 main_v47
  let main_v49 : FVec F S32x64 .f32 := Host.absf main_arg12
  let main_cst_18 : FVec F S_ .f32 := constant S_ .f32 0x7F800000#32
  let main_v50 : FVec F S32x64 .f32 := broadcastInDim S32x64 ![] bcast_S_S32x64 main_cst_18
  fn_part3 (F := F) main_arg13 main_arg14 main_arg15 main_arg16 main_arg17 main_v48 main_v49 main_v50

def fn_part1 {F : FTy → Type} [FloatOps F] (main_arg6 : FVec F S48x32 .f32) (main_arg7 : FVec F S48 .f32) (main_arg8 : FVec F S48x32 .f32) (main_arg9 : FVec F S64x48 .f32) (main_arg10 : FVec F S64 .f32) (main_arg11 : FVec F S64x48 .f32) (main_arg12 : FVec F S32x64 .f32) (main_arg13 : FVec F S32 .f32) (main_arg14 : FVec F S32x32 .f32) (main_arg15 : FVec F S32 .f32) (main_arg16 : FVec F S10x32 .f32) (main_arg17 : FVec F S10 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S48x32 .f32 := Host.absf main_arg6
  let main_cst_6 : FVec F S_ .f32 := constant S_ .f32 0x7F800000#32
  let main_v20 : FVec F S48x32 .f32 := broadcastInDim S48x32 ![] bcast_S_S48x32 main_cst_6
  let main_v21 : IVec S48x32 1 := cmpf .olt main_v19 main_v20
  let main_c_7 : IVec S_ 1 := constantI S_ 1 1#1
  let main_v22 : IVec S_ 1 := (fun x v => Host.reduce IntOp.andi x v reducesTo_S48x32_S_d0_1 h_S_) main_v21 main_c_7
  let main_v23 : IVec S_ 1 := andi main_v18 main_v22
  let main_v24 : FVec F S48 .f32 := Host.absf main_arg7
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S48x32 .f32 := Host.absf main_arg8
  let main_cst_10 : FVec F S_ .f32 := constant S_ .f32 0x7F800000#32
  let main_v30 : FVec F S48x32 .f32 := broadcastInDim S48x32 ![] bcast_S_S48x32 main_cst_10
  let main_v31 : IVec S48x32 1 := cmpf .olt main_v29 main_v30
  let main_c_11 : IVec S_ 1 := constantI S_ 1 1#1
  let main_v32 : IVec S_ 1 := (fun x v => Host.reduce IntOp.andi x v reducesTo_S48x32_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : IVec S100000 32) (main_arg3 : FVec F S32x64 .f32) (main_arg4 : FVec F S32 .f32) (main_arg5 : FVec F S32x64 .f32) (main_arg6 : FVec F S48x32 .f32) (main_arg7 : FVec F S48 .f32) (main_arg8 : FVec F S48x32 .f32) (main_arg9 : FVec F S64x48 .f32) (main_arg10 : FVec F S64 .f32) (main_arg11 : FVec F S64x48 .f32) (main_arg12 : FVec F S32x64 .f32) (main_arg13 : FVec F S32 .f32) (main_arg14 : FVec F S32x32 .f32) (main_arg15 : FVec F S32 .f32) (main_arg16 : FVec F S10x32 .f32) (main_arg17 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S32x64 : Shape := ⟨2, ![32, 64]⟩
abbrev S32 : Shape := ⟨1, ![32]⟩
abbrev S48x32 : Shape := ⟨2, ![48, 32]⟩
abbrev S48 : Shape := ⟨1, ![48]⟩
abbrev S64x48 : Shape := ⟨2, ![64, 48]⟩
abbrev S64 : Shape := ⟨1, ![64]⟩
abbrev S32x32 : Shape := ⟨2, ![32, 32]⟩
abbrev S10x32 : Shape := ⟨2, ![10, 32]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S64x32 : Shape := ⟨2, ![64, 32]⟩
abbrev S1x32 : Shape := ⟨2, ![1, 32]⟩
abbrev S100000x32 : Shape := ⟨2, ![100000, 32]⟩
abbrev S5000x64 : Shape := ⟨2, ![5000, 64]⟩
abbrev S5000x1 : Shape := ⟨2, ![5000, 1]⟩
abbrev S5000x32 : Shape := ⟨2, ![5000, 32]⟩
abbrev S1600000x32 : Shape := ⟨2, ![1600000, 32]⟩
abbrev S32x48 : Shape := ⟨2, ![32, 48]⟩
abbrev S1x48 : Shape := ⟨2, ![1, 48]⟩
abbrev S100000x48 : Shape := ⟨2, ![100000, 48]⟩
abbrev S5000x48 : Shape := ⟨2, ![5000, 48]⟩
abbrev S1600000x48 : Shape := ⟨2, ![1600000, 48]⟩
abbrev S48x64 : Shape := ⟨2, ![48, 64]⟩
abbrev S1x64 : Shape := ⟨2, ![1, 64]⟩
abbrev S64x64 : Shape := ⟨2, ![64, 64]⟩
abbrev S64x1 : Shape := ⟨2, ![64, 1]⟩
abbrev S32x10 : Shape := ⟨2, ![32, 10]⟩
abbrev S1x10 : Shape := ⟨2, ![1, 10]⟩
abbrev S64x10 : Shape := ⟨2, ![64, 10]⟩

abbrev nBuf : Space → Nat
  | .hbm => 117
  | .vmem => 41
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S32x64, .f32⟩
  | .hbm, ⟨4, _⟩ => ⟨S32, .f32⟩
  | .hbm, ⟨5, _⟩ => ⟨S32x64, .f32⟩
  | .hbm, ⟨6, _⟩ => ⟨S48x32, .f32⟩
  | .hbm, ⟨7, _⟩ => ⟨S48, .f32⟩
  | .hbm, ⟨8, _⟩ => ⟨S48x32, .f32⟩
  | .hbm, ⟨9, _⟩ => ⟨S64x48, .f32⟩
  | .hbm, ⟨10, _⟩ => ⟨S64, .f32⟩
  | .hbm, ⟨11, _⟩ => ⟨S64x48, .f32⟩
  | .hbm, ⟨12, _⟩ => ⟨S32x64, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S10x32, .f32⟩
  | .hbm, ⟨17, _⟩ => ⟨S10, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .bf16⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S64x32, .f32⟩
  | .hbm, ⟨52, _⟩ => ⟨S64x32, .f32⟩
  | .hbm, ⟨53, _⟩ => ⟨S1x32, .f32⟩
  | .hbm, ⟨54, _⟩ => ⟨S100000x32, .f32⟩
  | .hbm, ⟨55, _⟩ => ⟨S100000x32, .bf16⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x32, .bf16⟩
  | .hbm, ⟨65, _⟩ => ⟨S1600000x32, .f32⟩
  | .hbm, ⟨66, _⟩ => ⟨S_, .f32⟩
  | .hbm, ⟨67, _⟩ => ⟨S100000x32, .f32⟩
  | .hbm, ⟨68, _⟩ => ⟨S1600000x1, .i32⟩
  | .hbm, ⟨69, _⟩ => ⟨S100000x32, .f32⟩
  | .hbm, ⟨70, _⟩ => ⟨S32x48, .f32⟩
  | .hbm, ⟨71, _⟩ => ⟨S32x48, .f32⟩
  | .hbm, ⟨72, _⟩ => ⟨S1x48, .f32⟩
  | .hbm, ⟨73, _⟩ => ⟨S100000x48, .f32⟩
  | .hbm, ⟨74, _⟩ => ⟨S100000x48, .bf16⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x48, .bf16⟩
  | .hbm, ⟨84, _⟩ => ⟨S1600000x48, .f32⟩
  | .hbm, ⟨85, _⟩ => ⟨S_, .f32⟩
  | .hbm, ⟨86, _⟩ => ⟨S100000x48, .f32⟩
  | .hbm, ⟨87, _⟩ => ⟨S1600000x1, .i32⟩
  | .hbm, ⟨88, _⟩ => ⟨S100000x48, .f32⟩
  | .hbm, ⟨89, _⟩ => ⟨S48x64, .f32⟩
  | .hbm, ⟨90, _⟩ => ⟨S48x64, .f32⟩
  | .hbm, ⟨91, _⟩ => ⟨S1x64, .f32⟩
  | .hbm, ⟨92, _⟩ => ⟨S100000x64, .f32⟩
  | .hbm, ⟨93, _⟩ => ⟨S_, .f32⟩
  | .hbm, ⟨94, _⟩ => ⟨S64x64, .f32⟩
  | .hbm, ⟨95, _⟩ => ⟨S100000x1, .i32⟩
  | .hbm, ⟨96, _⟩ => ⟨S64x64, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S64, .f32⟩
  | .hbm, ⟨101, _⟩ => ⟨S100000x1, .i32⟩
  | .hbm, ⟨102, _⟩ => ⟨S64, .f32⟩
  | .hbm, ⟨103, _⟩ => ⟨S_, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S64x1, .f32⟩
  | .hbm, ⟨108, _⟩ => ⟨S64x64, .f32⟩
  | .hbm, ⟨109, _⟩ => ⟨S64x64, .f32⟩
  | .hbm, ⟨110, _⟩ => ⟨S64x32, .f32⟩
  | .hbm, ⟨111, _⟩ => ⟨S32x32, .f32⟩
  | .hbm, ⟨112, _⟩ => ⟨S32x10, .f32⟩
  | .hbm, ⟨113, _⟩ => ⟨S1x32, .f32⟩
  | .hbm, ⟨114, _⟩ => ⟨S1x32, .f32⟩
  | .hbm, ⟨115, _⟩ => ⟨S1x10, .f32⟩
  | .hbm, ⟨116, _⟩ => ⟨S64x10, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x32, .f32⟩
  | .local _ .vmem, ⟨7, _⟩ => ⟨S1x32, .f32⟩
  | .local _ .vmem, ⟨8, _⟩ => ⟨S64x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x1, .f32⟩
  | .local _ .vmem, ⟨14, _⟩ => ⟨S5000x1, .f32⟩
  | .local _ .vmem, ⟨15, _⟩ => ⟨S5000x32, .f32⟩
  | .local _ .vmem, ⟨16, _⟩ => ⟨S5000x32, .f32⟩
  | .local _ .vmem, ⟨17, _⟩ => ⟨S32x48, .f32⟩
  | .local _ .vmem, ⟨18, _⟩ => ⟨S1x48, .f32⟩
  | .local _ .vmem, ⟨19, _⟩ => ⟨S32x48, .f32⟩
  | .local _ .vmem, ⟨20, _⟩ => ⟨S5000x48, .f32⟩
  | .local _ .vmem, ⟨21, _⟩ => ⟨S5000x48, .f32⟩
  | .local _ .vmem, ⟨22, _⟩ => ⟨S5000x48, .f32⟩
  | .local _ .vmem, ⟨23, _⟩ => ⟨S5000x48, .f32⟩
  | .local _ .vmem, ⟨24, _⟩ => ⟨S5000x1, .f32⟩
  | .local _ .vmem, ⟨25, _⟩ => ⟨S5000x1, .f32⟩
  | .local _ .vmem, ⟨26, _⟩ => ⟨S5000x48, .f32⟩
  | .local _ .vmem, ⟨27, _⟩ => ⟨S5000x48, .f32⟩
  | .local _ .vmem, ⟨28, _⟩ => ⟨S48x64, .f32⟩
  | .local _ .vmem, ⟨29, _⟩ => ⟨S1x64, .f32⟩
  | .local _ .vmem, ⟨30, _⟩ => ⟨S48x64, .f32⟩
  | .local _ .vmem, ⟨31, _⟩ => ⟨S5000x64, .f32⟩
  | .local _ .vmem, ⟨32, _⟩ => ⟨S5000x64, .f32⟩
  | .local _ .vmem, ⟨33, _⟩ => ⟨S64x64, .f32⟩
  | .local _ .vmem, ⟨34, _⟩ => ⟨S64x32, .f32⟩
  | .local _ .vmem, ⟨35, _⟩ => ⟨S1x32, .f32⟩
  | .local _ .vmem, ⟨36, _⟩ => ⟨S32x32, .f32⟩
  | .local _ .vmem, ⟨37, _⟩ => ⟨S1x32, .f32⟩
  | .local _ .vmem, ⟨38, _⟩ => ⟨S32x10, .f32⟩
  | .local _ .vmem, ⟨39, _⟩ => ⟨S1x10, .f32⟩
  | .local _ .vmem, ⟨40, _⟩ => ⟨S64x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_call1_v0 : Ref sig .tc := ⟨.hbm, 104, rfl⟩
abbrev main_call1_v1 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x48 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x48 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S48x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S48x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x64 : S_.BroadcastsInDim S100000x64 (![] : Fin 0 → Fin S100000x64.rank)
  transposes_S32x64_S64x32_1_0 : S32x64.Transposes [1, 0] S64x32
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  transposes_S48x32_S32x48_1_0 : S48x32.Transposes [1, 0] S32x48
  shapeCasts_S48_S1x48 : S48.ShapeCasts S1x48
  shapeCasts_S5000x32_S5000x32 : S5000x32.ShapeCasts S5000x32
  broadcasts_S5000x1_S5000x32 : S5000x1.Broadcasts S5000x32
  inb_S32x48_S32x48_0_0 : ∀ a, (![0, 0] : Fin 2 → Nat) a + S32x48.size a ≤ S32x48.size a
  h_S32x48 : 0 < S32x48.numel
  shapeCasts_S32x48_S32x48 : S32x48.ShapeCasts S32x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  inb_S5000x48_S5000x48_0_0 : ∀ a, (![0, 0] : Fin 2 → Nat) a + S5000x48.size a ≤ S5000x48.size a
  h_S5000x48 : 0 < S5000x48.numel
  bcast_S_S100000x48 : S_.BroadcastsInDim S100000x48 (![] : Fin 0 → Fin S100000x48.rank)
  transposes_S64x48_S48x64_1_0 : S64x48.Transposes [1, 0] S48x64
  shapeCasts_S64_S1x64 : S64.ShapeCasts S1x64
  shapeCasts_S5000x48_S5000x48 : S5000x48.ShapeCasts S5000x48
  broadcasts_S5000x1_S5000x48 : S5000x1.Broadcasts S5000x48
  inb_S48x64_S48x64_0_0 : ∀ a, (![0, 0] : Fin 2 → Nat) a + S48x64.size a ≤ S48x64.size a
  h_S48x64 : 0 < S48x64.numel
  shapeCasts_S48x64_S48x64 : S48x64.ShapeCasts S48x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S32x32_S32x32_1_0 : S32x32.Transposes [1, 0] S32x32
  transposes_S10x32_S32x10_1_0 : S10x32.Transposes [1, 0] S32x10
  shapeCasts_S10_S1x10 : S10.ShapeCasts S1x10
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x32_S64x32 : S1x32.Broadcasts S64x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x10_S32x10_0_0 : ∀ a, (![0, 0] : Fin 2 → Nat) a + S32x10.size a ≤ S32x10.size a
  h_S32x10 : 0 < S32x10.numel
  shapeCasts_S32x10_S32x10 : S32x10.ShapeCasts S32x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x48_S5000x48_1_0_0_1_n_n_wf : DotDims.WF S5000x32 S32x48 S5000x48 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S5000x48_S48x64_S5000x64_1_0_0_1_n_n_wf : DotDims.WF S5000x48 S48x64 S5000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x32_S64x32_1_0_0_1_n_n_wf : DotDims.WF S64x32 S32x32 S64x32 [1] [0] [0] [1] [] []
  dot_S64x32_S32x10_S64x10_1_0_0_1_n_n_wf : DotDims.WF S64x32 S32x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x48.size a ≤ S32x48.size a
  hwx1_3 : ∀ i : grid1.Coords, EltTy.bits .f32 = 32 ∨ (Rect.block (s := S32x48) S32x48.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x48.size a ≤ S1x48.size a
  hwx1_4 : ∀ i : grid1.Coords, EltTy.bits .f32 = 32 ∨ (Rect.block (s := S1x48) S1x48.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x48.size a ≤ S32x48.size a
  hwx1_5 : ∀ i : grid1.Coords, EltTy.bits .f32 = 32 ∨ (Rect.block (s := S32x48) S32x48.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x48.size a ≤ S100000x48.size a
  hwx1_6 : ∀ i : grid1.Coords, EltTy.bits .f32 = 32 ∨ (Rect.block (s := S100000x48) S5000x48.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x48.size a ≤ S100000x48.size a
  hwx2_0 : ∀ i : grid2.Coords, EltTy.bits .f32 = 32 ∨ (Rect.block (s := S100000x48) S5000x48.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x48.size a ≤ S100000x48.size a
  hwx2_2 : ∀ i : grid2.Coords, EltTy.bits .f32 = 32 ∨ (Rect.block (s := S100000x48) S5000x48.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S48x64.size a ≤ S48x64.size a
  hwx2_3 : ∀ i : grid2.Coords, EltTy.bits .f32 = 32 ∨ (Rect.block (s := S48x64) S48x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S48x64.size a ≤ S48x64.size a
  hwx2_5 : ∀ i : grid2.Coords, EltTy.bits .f32 = 32 ∨ (Rect.block (s := S48x64) S48x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x64.size a ≤ S64x64.size a
  hwx3_0 : ∀ i : grid3.Coords, EltTy.bits .f32 = 32 ∨ (Rect.block (s := S64x64) S64x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x32.size a ≤ S32x32.size a
  hwx3_3 : ∀ i : grid3.Coords, EltTy.bits .f32 = 32 ∨ (Rect.block (s := S32x32) S32x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x10.size a ≤ S32x10.size a
  hwx3_5 : ∀ i : grid3.Coords, EltTy.bits .f32 = 32 ∨ (Rect.block (s := S32x10) S32x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x10.size a ≤ S64x10.size a
  hwx3_7 : ∀ i : grid3.Coords, EltTy.bits .f32 = 32 ∨ (Rect.block (s := S64x10) S64x10.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x48_S5000x48_1_0_0_1_n_n : DotDims S5000x32 S32x48 S5000x48 where
  lhsContracting := [1]
  rhsContracting := [0]
  lhsNonContracting := [0]
  rhsNonContracting := [1]
  lhsBatch := []
  rhsBatch := []
  wf := dot_S5000x32_S32x48_S5000x48_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S5000x48_S48x64_S5000x64_1_0_0_1_n_n : DotDims S5000x48 S48x64 S5000x64 where
  lhsContracting := [1]
  rhsContracting := [0]
  lhsNonContracting := [0]
  rhsNonContracting := [1]
  lhsBatch := []
  rhsBatch := []
  wf := dot_S5000x48_S48x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x32_S64x32_1_0_0_1_n_n : DotDims S64x32 S32x32 S64x32 where
  lhsContracting := [1]
  rhsContracting := [0]
  lhsNonContracting := [0]
  rhsNonContracting := [1]
  lhsBatch := []
  rhsBatch := []
  wf := dot_S64x32_S32x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S32x48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x48.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S32x48.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x48.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v55) S5000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x48.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S48x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S48x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v70) S64x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v71) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S32x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S32x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v76) S1x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77) S64x10.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S32x64 : Shape := ⟨2, ![32, 64]⟩
abbrev S32 : Shape := ⟨1, ![32]⟩
abbrev S48x32 : Shape := ⟨2, ![48, 32]⟩
abbrev S48 : Shape := ⟨1, ![48]⟩
abbrev S64x48 : Shape := ⟨2, ![64, 48]⟩
abbrev S64 : Shape := ⟨1, ![64]⟩
abbrev S32x32 : Shape := ⟨2, ![32, 32]⟩
abbrev S10x32 : Shape := ⟨2, ![10, 32]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S64x32 : Shape := ⟨2, ![64, 32]⟩
abbrev S100000x32 : Shape := ⟨2, ![100000, 32]⟩
abbrev S1x32 : Shape := ⟨2, ![1, 32]⟩
abbrev S1600000x32 : Shape := ⟨2, ![1600000, 32]⟩
abbrev S32x48 : Shape := ⟨2, ![32, 48]⟩
abbrev S100000x48 : Shape := ⟨2, ![100000, 48]⟩
abbrev S1x48 : Shape := ⟨2, ![1, 48]⟩
abbrev S1600000x48 : Shape := ⟨2, ![1600000, 48]⟩
abbrev S48x64 : Shape := ⟨2, ![48, 64]⟩
abbrev S1x64 : Shape := ⟨2, ![1, 64]⟩
abbrev S64x64 : Shape := ⟨2, ![64, 64]⟩
abbrev S64x1 : Shape := ⟨2, ![64, 1]⟩
abbrev S32x10 : Shape := ⟨2, ![32, 10]⟩
abbrev S64x10 : Shape := ⟨2, ![64, 10]⟩
abbrev S1x10 : Shape := ⟨2, ![1, 10]⟩

abbrev nBuf : Space → Nat
  | .hbm => 149
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S32x64, .f32⟩
  | 4 => ⟨S32, .f32⟩
  | 5 => ⟨S32x64, .f32⟩
  | 6 => ⟨S48x32, .f32⟩
  | 7 => ⟨S48, .f32⟩
  | 8 => ⟨S48x32, .f32⟩
  | 9 => ⟨S64x48, .f32⟩
  | 10 => ⟨S64, .f32⟩
  | 11 => ⟨S64x48, .f32⟩
  | 12 => ⟨S32x64, .f32⟩
  | 13 => ⟨S32, .f32⟩
  | 14 => ⟨S32x32, .f32⟩
  | 15 => ⟨S32, .f32⟩
  | 16 => ⟨S10x32, .f32⟩
  | 17 => ⟨S10, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .f32⟩
  | 46 => ⟨S100000x64, .f32⟩
  | 47 => ⟨S1600000x1, .i32⟩
  | 48 => ⟨S100000x64, .f32⟩
  | 49 => ⟨S100000x64, .f32⟩
  | 50 => ⟨S100000x64, .f32⟩
  | 51 => ⟨S64x32, .f32⟩
  | 52 => ⟨S100000x32, .f32⟩
  | 53 => ⟨S1x32, .f32⟩
  | 54 => ⟨S100000x32, .f32⟩
  | 55 => ⟨S100000x32, .f32⟩
  | 56 => ⟨S64x32, .f32⟩
  | 57 => ⟨S100000x32, .f32⟩
  | 58 => ⟨S100000x32, .f32⟩
  | 59 => ⟨S_, .f32⟩
  | 60 => ⟨S100000x32, .f32⟩
  | 61 => ⟨S100000x32, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x32, .f32⟩
  | 71 => ⟨S_, .f32⟩
  | 72 => ⟨S100000x32, .f32⟩
  | 73 => ⟨S1600000x1, .i32⟩
  | 74 => ⟨S100000x32, .f32⟩
  | 75 => ⟨S100000x32, .f32⟩
  | 76 => ⟨S100000x32, .f32⟩
  | 77 => ⟨S32x48, .f32⟩
  | 78 => ⟨S100000x48, .f32⟩
  | 79 => ⟨S1x48, .f32⟩
  | 80 => ⟨S100000x48, .f32⟩
  | 81 => ⟨S100000x48, .f32⟩
  | 82 => ⟨S32x48, .f32⟩
  | 83 => ⟨S100000x48, .f32⟩
  | 84 => ⟨S100000x48, .f32⟩
  | 85 => ⟨S_, .f32⟩
  | 86 => ⟨S100000x48, .f32⟩
  | 87 => ⟨S100000x48, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x48, .f32⟩
  | 97 => ⟨S_, .f32⟩
  | 98 => ⟨S100000x48, .f32⟩
  | 99 => ⟨S1600000x1, .i32⟩
  | 100 => ⟨S100000x48, .f32⟩
  | 101 => ⟨S100000x48, .f32⟩
  | 102 => ⟨S100000x48, .f32⟩
  | 103 => ⟨S48x64, .f32⟩
  | 104 => ⟨S100000x64, .f32⟩
  | 105 => ⟨S1x64, .f32⟩
  | 106 => ⟨S100000x64, .f32⟩
  | 107 => ⟨S100000x64, .f32⟩
  | 108 => ⟨S48x64, .f32⟩
  | 109 => ⟨S100000x64, .f32⟩
  | 110 => ⟨S100000x64, .f32⟩
  | 111 => ⟨S_, .f32⟩
  | 112 => ⟨S64x64, .f32⟩
  | 113 => ⟨S100000x1, .i32⟩
  | 114 => ⟨S64x64, .f32⟩
  | 115 => ⟨S_, .f32⟩
  | 116 => ⟨S100000, .f32⟩
  | 117 => ⟨S_, .f32⟩
  | 118 => ⟨S64, .f32⟩
  | 119 => ⟨S100000x1, .i32⟩
  | 120 => ⟨S64, .f32⟩
  | 121 => ⟨S_, .f32⟩
  | 122 => ⟨S_, .f32⟩
  | 123 => ⟨S64, .f32⟩
  | 124 => ⟨S64, .f32⟩
  | 125 => ⟨S64x1, .f32⟩
  | 126 => ⟨S64x64, .f32⟩
  | 127 => ⟨S64x64, .f32⟩
  | _ => ⟨S100000x64, .f32⟩

abbrev hbmTy0_1 (i : Nat) : BufTy := match i % 128 with
  | 0 => ⟨S64x32, .f32⟩
  | 1 => ⟨S64x32, .f32⟩
  | 2 => ⟨S1x32, .f32⟩
  | 3 => ⟨S64x32, .f32⟩
  | 4 => ⟨S64x32, .f32⟩
  | 5 => ⟨S_, .f32⟩
  | 6 => ⟨S64x32, .f32⟩
  | 7 => ⟨S64x32, .f32⟩
  | 8 => ⟨S32x32, .f32⟩
  | 9 => ⟨S64x32, .f32⟩
  | 10 => ⟨S1x32, .f32⟩
  | 11 => ⟨S64x32, .f32⟩
  | 12 => ⟨S64x32, .f32⟩
  | 13 => ⟨S_, .f32⟩
  | 14 => ⟨S64x32, .f32⟩
  | 15 => ⟨S64x32, .f32⟩
  | 16 => ⟨S32x10, .f32⟩
  | 17 => ⟨S64x10, .f32⟩
  | 18 => ⟨S1x10, .f32⟩
  | 19 => ⟨S64x10, .f32⟩
  | 20 => ⟨S64x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call1_cst : Ref sig .tc := ⟨.hbm, 59, rfl⟩
abbrev main_call1_v0 : Ref sig .tc := ⟨.hbm, 60, rfl⟩
abbrev main_v32 : Ref sig .tc := ⟨.hbm, 61, rfl⟩
abbrev main_c_5 : Ref sig .tc := ⟨.hbm, 62, rfl⟩
abbrev main_v33 : Ref sig .tc := ⟨.hbm, 63, rfl⟩
abbrev main_v34 : Ref sig .tc := ⟨.hbm, 64, rfl⟩
abbrev main_c_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call2_cst : Ref sig .tc := ⟨.hbm, 85, rfl⟩
abbrev main_call2_v0 : Ref sig .tc := ⟨.hbm, 86, rfl⟩
abbrev main_v53 : Ref sig .tc := ⟨.hbm, 87, rfl⟩
abbrev main_c_8 : Ref sig .tc := ⟨.hbm, 88, rfl⟩
abbrev main_v54 : Ref sig .tc := ⟨.hbm, 89, rfl⟩
abbrev main_v55 : Ref sig .tc := ⟨.hbm, 90, rfl⟩
abbrev main_c_9 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_10 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_12 : Ref sig .tc := ⟨.hbm, 115, rfl⟩
abbrev main_v77 : Ref sig .tc := ⟨.hbm, 116, rfl⟩
abbrev main_cst_13 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_call3_v0 : Ref sig .tc := ⟨.hbm, 122, rfl⟩
abbrev main_call3_v1 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call4_cst : Ref sig .tc := ⟨.hbm, 133, rfl⟩
abbrev main_call4_v0 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_call5_cst : Ref sig .tc := ⟨.hbm, 141, rfl⟩
abbrev main_call5_v0 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S48x32_S32x48_1_0 : S48x32.Transposes [1, 0] S32x48
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S_S100000x48 : S_.BroadcastsInDim S100000x48 (![] : Fin 0 → Fin S100000x48.rank)
  bcast_S100000x1_S100000x48_0_1 : S100000x1.BroadcastsInDim S100000x48 (![0, 1] : Fin 2 → Fin S100000x48.rank)
  transposes_S64x48_S48x64_1_0 : S64x48.Transposes [1, 0] S48x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  transposes_S32x32_S32x32_1_0 : S32x32.Transposes [1, 0] S32x32
  transposes_S10x32_S32x10_1_0 : S10x32.Transposes [1, 0] S32x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x48_S100000x48_1_0_0_1_n_n_wf : DotDims.WF S100000x32 S32x48 S100000x48 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x64_S100000x64_1_0_0_1_n_n_wf : DotDims.WF S100000x48 S48x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x32_S64x32_1_0_0_1_n_n_wf : DotDims.WF S64x32 S32x32 S64x32 [1] [0] [0] [1] [] []
  dot_S64x32_S32x10_S64x10_1_0_0_1_n_n_wf : DotDims.WF S64x32 S32x10 S64x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x48_S100000x48_1_0_0_1_n_n : DotDims S100000x32 S32x48 S100000x48 where
  lhsContracting := [1]
  rhsContracting := [0]
  lhsNonContracting := [0]
  rhsNonContracting := [1]
  lhsBatch := []
  rhsBatch := []
  wf := dot_S100000x32_S32x48_S100000x48_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x64_S100000x64_1_0_0_1_n_n : DotDims S100000x48 S48x64 S100000x64 where
  lhsContracting := [1]
  rhsContracting := [0]
  lhsNonContracting := [0]
  rhsNonContracting := [1]
  lhsBatch := []
  rhsBatch := []
  wf := dot_S100000x48_S48x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x32_S64x32_1_0_0_1_n_n : DotDims S64x32 S32x32 S64x32 where
  lhsContracting := [1]
  rhsContracting := [0]
  lhsNonContracting := [0]
  rhsNonContracting := [1]
  lhsBatch := []
  rhsBatch := []
  wf := dot_S64x32_S32x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

class Facts : Prop extends Facts₀ where

variable [Facts]
-- ==== Proof.RunAll.lean ====
/-
  The whole program's run, read at every buffer.

  The program is twelve segments in a row: stretches of array operations and four launches of a vector-unit kernel over
  a grid of row blocks. Each segment takes the core's buffers from one valuation to the next: an array operation writes
  its result buffer as a function of its operands, a launch leaves each of its arrays at what its blocks' write-backs
  fold to and every other buffer as it found it. Composing the twelve steps from the launch memory gives one last
  valuation, and every weakly fair execution terminates with every buffer that outlives the launches holding exactly
  that valuation's contents. The result buffer and the eighteen argument buffers are among them.
-/
import proofs.«127130_j5153960755249_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each buffer that
    outlives the launches holds the last valuation's contents: the twelve segments chained from the launch memory, the
    last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The run read at one buffer that outlives the launches. -/
theorem mem_of_run {r : PUnit × MemSt nD τ sig (Elt F)}
    (h : ∀ c : Dev nD, ∀ b ∈ Pipeline.ucRefs τ sig, r.2.mem (((c : Thread nD τ)).1, b) = W12 m ρ c b)
    (c : Dev nD) (b : Ref sig .tc) (hb : ¬ (Proc.devRef .tc b : DevRef τ sig).isScoped) :
    r.2.mem ((c : Thread nD τ).loc b) = W12 m ρ c (Proc.devRef .tc b) :=
  h c _ (mem_uc b hb)

end Cert.KernelIdeal.Whole

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.LibDense.lean ====
/-
  One dense layer read at an entry.

  A dense layer sends a table x of m rows and n columns to  relu (x · w + b):  entry (a, j) of the result is
  max (Σ_k x(a, k) · w(k, j) + b(j)) 0,  the sum over the n columns of x (rows of w). Here the layer is spelt the way
  a vector unit computes one block of rows: both operands pass through a change of float format (the identity on
  the extended reals) and an identity re-shaping, the product accumulates into a zero table, the bias is a one-row
  table repeated down the rows, and the rectifier is the maximum with a table of zeros. The same value holds with
  no rectifier (lin_apply). No finiteness is assumed: only that zero is neutral for + and that the dimension
  record's contraction runs over the n positions of the shared axis.
-/
import Idealize.ShloMosaic.Lib.ValueIdx
import Idealize.ShloMosaic.Lib.ValueLayout
import Idealize.ShloMosaic.Lib.Pipeline.Value
import Idealize.ShloMosaic.PureOps.Ideal.Laws
import proofs.«127130_j5153960755249_2_alg».proof.Proof.LibDot

noncomputable section

open scoped BigOperators

namespace Cert.LibDense

open Idealize.ShloMosaic Idealize.ShloMosaic.ValueIdx

/-- A one-row table repeated down m rows: entry (a, j) is the row's entry j. -/
theorem row_apply {α : Type} {m p : Nat} (b : (⟨2, ![1, p]⟩ : Shape).Idx → α)
    (hb : (⟨2, ![1, p]⟩ : Shape).Broadcasts ⟨2, ![m, p]⟩) (a : Fin m) (j : Fin p) :
    broadcastTo ⟨2, ![m, p]⟩ b hb (ix2 a j) = b (ix2 (0 : Fin 1) j) := by
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- A one-row table repeated down m rows (after an identity re-shaping): entry (a, j) is the row's entry j. -/
theorem bias_apply {m p : Nat} (b : (⟨2, ![1, p]⟩ : Shape).Idx → EReal)
    (hc : (⟨2, ![1, p]⟩ : Shape).ShapeCasts ⟨2, ![1, p]⟩) (hb : (⟨2, ![1, p]⟩ : Shape).Broadcasts ⟨2, ![m, p]⟩)
    (a : Fin m) (j : Fin p) :
    broadcastTo ⟨2, ![m, p]⟩ (shapeCast ⟨2, ![1, p]⟩ b hc) hb (ix2 a j) = b (ix2 (0 : Fin 1) j) := by
  rw [shapeCast_self]
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- The linear part  x · w + b  of the layer at entry (a, j), the operands as they are. -/
theorem lin_core {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 x hbits) (truncf .bf16 w hbits) (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [addf_apply, bias_apply b hc hb a j]
  congr 1
  refine (Ideal.matmul_constant_zero_apply d none _ _ (ix2 a j)).trans ?_
  exact Cert.Sage.LibDot.sum_plain d hr hs hl0 hl1 hr0 hr1 (fun i => x i) (fun i => w i) a j

/-- The same with both operands passed through an identity re-shaping first. -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩) (hw : (⟨2, ![n, p]⟩ : Shape).ShapeCasts ⟨2, ![n, p]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 (shapeCast ⟨2, ![n, p]⟩ w hw) hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self, shapeCast_self]
  exact lin_core d hr hs hl0 hl1 hr0 hr1 x w b hc hb hbits a j

/-- The same with only the left operand passed through an identity re-shaping. -/
theorem lin_apply_x {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 w hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self]
  exact lin_core d hr hs hl0 hl1 hr0 hr1 x w b hc hb hbits a j

end Cert.LibDense

end
-- ==== Proof.LibDenseRef.lean ====
/-
  One dense layer in the host's spelling, read at an entry.

  On the host a dense layer is a matrix product, a bias vector placed along the rows (first as a one-row table, then
  repeated down the rows) and, for a rectified layer, the maximum with a table of zeros made from a scalar zero.
  Entry (a, j) is  Σ_k x(a, k) · w(k, j) + b(j)  (and its maximum with 0): the same value as the vector unit's
  spelling of the layer (LibDense), whose bias is a one-row table. No finiteness is assumed.
-/
import Idealize.ShloMosaic.Lib.ValueIdx
import Idealize.ShloMosaic.Lib.ValueLayout
import Idealize.ShloMosaic.Lib.Pipeline.Value
import Idealize.ShloMosaic.PureOps.Ideal.Laws
import proofs.«127130_j5153960755249_2_alg».proof.Proof.LibDot

noncomputable section

open scoped BigOperators

namespace Cert.LibDenseRef

open Idealize.ShloMosaic Idealize.ShloMosaic.ValueIdx

/-- A scalar repeated over a whole table: every entry is the scalar. -/
theorem scalar_apply {α : Type} {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

/-- The linear part of the layer at entry (a, j). -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1]) (a : Fin m) (j : Fin p) :
    addf (Host.dotGeneral d none x w) (broadcastInDim ⟨2, ![m, p]⟩ ![0, 1] hbc (broadcastInDim ⟨2, ![1, p]⟩ ![1] hd b)) (ix2 a j)
      = (∑ k : Fin n, x (ix2 a k) * w (ix2 k j)) + b (ix1 j) := by
  rw [addf_apply, Cert.Sage.LibDot.row_dims_apply b hd hbc a j]
  congr 1
  simp only [Host.dotGeneral]
  rw [Ideal.dotGeneral_apply]
  exact Cert.Sage.LibDot.sum_plain d hr hs hl0 hl1 hr0 hr1 (fun i => x i) (fun i => w i) a j

/-- The rectified layer at entry (a, j). -/
theorem relu_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1])
    (hz : (⟨0, ![]⟩ : Shape).BroadcastsInDim ⟨2, ![m, p]⟩ ![]) (a : Fin m) (j : Fin p) :
    maximumf (addf (Host.dotGeneral d none x w) (broadcastInDim ⟨2, ![m, p]⟩ ![0, 1] hbc (broadcastInDim ⟨2, ![1, p]⟩ ![1] hd b)))
        (broadcastInDim ⟨2, ![m, p]⟩ ![] hz (constant (F := Ideal) ⟨0, ![]⟩ .f32 0x00000000#32)) (ix2 a j)
      = max ((∑ k : Fin n, x (ix2 a k) * w (ix2 k j)) + b (ix1 j)) 0 := by
  refine (maximumf_apply _ _ (ix2 a j)).trans ?_
  refine congrArg₂ max (lin_apply d hr hs hl0 hl1 hr0 hr1 x w b hd hbc a j) ?_
  rw [scalar_apply]
  exact Ideal.ofBits_zero_f32

end Cert.LibDenseRef

end
-- ==== Proof.LibKeepdims.lean ====
/-
  Vectors as one-column and one-row tables, read at an entry, for tables of any size and any element type.

  A vector v of a entries becomes a one-column table either by a re-shaping (the vector unit's spelling) or by being
  placed along axis 0 of an a × 1 table (the array program's spelling): either way entry (p, 0) is v(p). A one-column
  table repeated over b columns has entry (p, q) equal to the column's entry p. A vector of n entries re-shaped to one
  row has entry (0, q) equal to the vector's entry q. These are the layouts a row-wise reduction kept as a column
  (a maximum or a sum along the rows, laid back along them) goes through.
-/
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector of a entries cast to one column: entry (p, 0) is the vector's entry p. -/
theorem col_cast_apply {a : Nat} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

/-- One column repeated over b columns: entry (p, q) is the column's entry p. -/
theorem col_bcast_apply {a b : Nat} (y : (⟨2, ![a, 1]⟩ : Shape).Idx → α) (h : (⟨2, ![a, 1]⟩ : Shape).Broadcasts ⟨2, ![a, b]⟩)
    (p : Fin a) (q : Fin b) : broadcastTo ⟨2, ![a, b]⟩ y h (ix2 p q) = y (ix2 p (0 : Fin 1)) := by
  refine broadcastTo_apply y h (ix2 p q) (ix2 p (0 : Fin 1)) ?_
  intro x
  match x with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A vector of m entries placed along axis 0 of a one-column table: entry (r, 0) is the vector's entry r. -/
theorem vec_col_apply {m : Nat} (h : (⟨1, ![m]⟩ : Shape).BroadcastsInDim ⟨2, ![m, 1]⟩ ![0])
    (v : (⟨1, ![m]⟩ : Shape).Idx → α) (r : Fin m) :
    broadcastInDim ⟨2, ![m, 1]⟩ ![0] h v (ix2 r (0 : Fin 1)) = v (ix1 r) := by
  refine broadcastInDim_apply ![0] h v (ix2 r (0 : Fin 1)) (ix1 r) ?_
  intro a
  match a with
  | ⟨0, _⟩ =>
    show r.val = if m = 1 then 0 else r.val
    split
    · have := r.isLt; omega
    · rfl

/-- A vector of n entries re-shaped to one row keeps its entries: entry (0, q) is the vector's entry q. -/
theorem row_cast_apply {n : Nat} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) := by
  refine shapeCast_apply x h (ix2 (0 : Fin 1) q) (ix1 q) ?_
  rw [Shape.rowMajor_val_two, Shape.rowMajor_val_one]
  show q.val = 0 * n + q.val
  omega

end Cert.LibKeepdims

end
-- ==== Proof.LibSage.lean ====
/-
  One mean-aggregating graph layer read at an entry, for tables of any size.

  The layer sends a table ms of summed neighbour rows (m rows, n columns), a one-column table di of reciprocal
  degrees, the nodes' own rows x, two weight tables wl, wr (n rows, p columns) and a bias b to

      out(a, j) = ( Σ_k (ms(a, k) · di(a, 0)) · wl(k, j)  +  b(j) )  +  Σ_k x(a, k) · wr(k, j),

  optionally followed by the maximum with 0. Two spellings of it are read here at an entry (a, j).

  The vector unit's spelling works on one block of rows: the reciprocal degree is a one-column table repeated
  along the columns, both products pass their operands through a change of float format (the identity on the
  extended reals) and accumulate into a table of zeros, the two products are added FIRST and the bias, a one-row
  table repeated down the rows, is added LAST.

  The array program's spelling places the reciprocal degrees along the columns by a broadcast, adds the bias (a
  vector placed along the rows in two steps) to the first product and the second product last.

  On the extended reals addition is commutative and associative with no side condition, so the two orders agree:
  (s + t) + b = (s + b) + t. No finiteness of any entry is used.
-/
import Idealize.ShloMosaic.Lib.ValueIdx
import Idealize.ShloMosaic.Lib.ValueLayout
import Idealize.ShloMosaic.Lib.Pipeline.Value
import Idealize.ShloMosaic.PureOps.Ideal.Laws
import proofs.«127130_j5153960755249_2_alg».proof.Proof.LibDot
import proofs.«127130_j5153960755249_2_alg».proof.Proof.LibDense
import proofs.«127130_j5153960755249_2_alg».proof.Proof.LibDenseRef
import proofs.«127130_j5153960755249_2_alg».proof.Proof.LibKeepdims

noncomputable section

open scoped BigOperators

namespace Cert.LibSage

open Idealize.ShloMosaic Idealize.ShloMosaic.ValueIdx

/-- The layer's value at entry (a, j): the normal form both spellings are brought to. -/
def layerAt {m n p : Nat} (ms x : (⟨2, ![m, n]⟩ : Shape).Idx → EReal) (di : (⟨2, ![m, 1]⟩ : Shape).Idx → EReal)
    (wl wr : (⟨2, ![n, p]⟩ : Shape).Idx → EReal) (b : Fin p → EReal) (a : Fin m) (j : Fin p) : EReal :=
  ((∑ k : Fin n, (ms (ix2 a k) * di (ix2 a (0 : Fin 1))) * wl (ix2 k j)) + b j) + ∑ k : Fin n, x (ix2 a k) * wr (ix2 k j)

section
variable {m n p : Nat} (d : DotDims ⟨2, ![m, n]⟩ ⟨2, ![n, p]⟩ ⟨2, ![m, p]⟩)
  (hr : d.contr.rank = 1) (hs : d.contr.size ⟨0, by omega⟩ = n)
  (hl0 : ∀ (i : (⟨2, ![m, p]⟩ : Shape).Idx) (q : d.contr.Idx), (d.lhsIdx i q 0).val = (i 0).val)
  (hl1 : ∀ (i : (⟨2, ![m, p]⟩ : Shape).Idx) (q : d.contr.Idx), (d.lhsIdx i q 1).val = (q ⟨0, by omega⟩).val)
  (hr0 : ∀ (i : (⟨2, ![m, p]⟩ : Shape).Idx) (q : d.contr.Idx), (d.rhsIdx i q 0).val = (q ⟨0, by omega⟩).val)
  (hr1 : ∀ (i : (⟨2, ![m, p]⟩ : Shape).Idx) (q : d.contr.Idx), (d.rhsIdx i q 1).val = (i 1).val)

include hr hs hl0 hl1 hr0 hr1

/-- A product accumulated into a table of zeros, its operands passed through a change of float format: entry (a, j)
    is the sum over the shared axis. -/
theorem mm_apply (x : FVec Ideal ⟨2, ![m, n]⟩ .f32) (w : FVec Ideal ⟨2, ![n, p]⟩ .f32)
    (hbits : FTy.bf16.bits < FTy.f32.bits) (a : Fin m) (j : Fin p) :
    matmul d none (truncf .bf16 x hbits) (truncf .bf16 w hbits) (constant (F := Ideal) ⟨2, ![m, p]⟩ .f32 0x00000000#32) (ix2 a j)
      = ∑ k : Fin n, x (ix2 a k) * w (ix2 k j) :=
  (Ideal.matmul_constant_zero_apply d none _ _ (ix2 a j)).trans
    (Cert.Sage.LibDot.sum_plain d hr hs hl0 hl1 hr0 hr1 (fun i => x i) (fun i => w i) a j)

/-- The array program's product: entry (a, j) is the same sum. -/
theorem host_mm_apply (x : FVec Ideal ⟨2, ![m, n]⟩ .f32) (w : FVec Ideal ⟨2, ![n, p]⟩ .f32) (a : Fin m) (j : Fin p) :
    Host.dotGeneral d none x w (ix2 a j) = ∑ k : Fin n, x (ix2 a k) * w (ix2 k j) := by
  simp only [Host.dotGeneral]
  rw [Ideal.dotGeneral_apply]
  exact Cert.Sage.LibDot.sum_plain d hr hs hl0 hl1 hr0 hr1 (fun i => x i) (fun i => w i) a j

/-- The vector unit's spelling of the layer (no rectifier) at entry (a, j) of a block of m rows. -/
theorem kernel_layer (ms x : FVec Ideal ⟨2, ![m, n]⟩ .f32) (di : FVec Ideal ⟨2, ![m, 1]⟩ .f32)
    (wl wr : FVec Ideal ⟨2, ![n, p]⟩ .f32) (b : FVec Ideal ⟨2, ![1, p]⟩ .f32)
    (hms : (⟨2, ![m, n]⟩ : Shape).ShapeCasts ⟨2, ![m, n]⟩) (hdi : (⟨2, ![m, 1]⟩ : Shape).ShapeCasts ⟨2, ![m, 1]⟩)
    (hdb : (⟨2, ![m, 1]⟩ : Shape).Broadcasts ⟨2, ![m, n]⟩) (hw : (⟨2, ![n, p]⟩ : Shape).ShapeCasts ⟨2, ![n, p]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (addf
        (matmul d none (truncf .bf16 (mulf (shapeCast ⟨2, ![m, n]⟩ ms hms) (broadcastTo ⟨2, ![m, n]⟩ (shapeCast ⟨2, ![m, 1]⟩ di hdi) hdb)) hbits)
          (truncf .bf16 (shapeCast ⟨2, ![n, p]⟩ wl hw) hbits) (constant (F := Ideal) ⟨2, ![m, p]⟩ .f32 0x00000000#32))
        (matmul d none (truncf .bf16 x hbits) (truncf .bf16 (shapeCast ⟨2, ![n, p]⟩ wr hw) hbits)
          (constant (F := Ideal) ⟨2, ![m, p]⟩ .f32 0x00000000#32)))
      (broadcastTo ⟨2, ![m, p]⟩ (shapeCast ⟨2, ![1, p]⟩ b hc) hb) (ix2 a j)
      = layerAt ms x di wl wr (fun q => b (ix2 (0 : Fin 1) q)) a j := by
  simp only [shapeCast_self]
  have e1 := mm_apply d hr hs hl0 hl1 hr0 hr1 (mulf ms (broadcastTo ⟨2, ![m, n]⟩ di hdb)) wl hbits a j
  have e2 := mm_apply d hr hs hl0 hl1 hr0 hr1 x wr hbits a j
  have e3 : ∀ k : Fin n, mulf ms (broadcastTo ⟨2, ![m, n]⟩ di hdb) (ix2 a k) = ms (ix2 a k) * di (ix2 a (0 : Fin 1)) := fun k => by
    rw [mulf_apply, Cert.LibKeepdims.col_bcast_apply di hdb a k]
  simp only [e3] at e1
  rw [addf_apply, addf_apply, e1, e2, Cert.LibDense.row_apply b hb a j]
  exact add_right_comm _ _ _

/-- The same with the nodes' own rows also passed through an identity re-shaping. -/
theorem kernel_layer_cast (ms x : FVec Ideal ⟨2, ![m, n]⟩ .f32) (di : FVec Ideal ⟨2, ![m, 1]⟩ .f32)
    (wl wr : FVec Ideal ⟨2, ![n, p]⟩ .f32) (b : FVec Ideal ⟨2, ![1, p]⟩ .f32)
    (hms : (⟨2, ![m, n]⟩ : Shape).ShapeCasts ⟨2, ![m, n]⟩) (hdi : (⟨2, ![m, 1]⟩ : Shape).ShapeCasts ⟨2, ![m, 1]⟩)
    (hdb : (⟨2, ![m, 1]⟩ : Shape).Broadcasts ⟨2, ![m, n]⟩) (hw : (⟨2, ![n, p]⟩ : Shape).ShapeCasts ⟨2, ![n, p]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (addf
        (matmul d none (truncf .bf16 (mulf (shapeCast ⟨2, ![m, n]⟩ ms hms) (broadcastTo ⟨2, ![m, n]⟩ (shapeCast ⟨2, ![m, 1]⟩ di hdi) hdb)) hbits)
          (truncf .bf16 (shapeCast ⟨2, ![n, p]⟩ wl hw) hbits) (constant (F := Ideal) ⟨2, ![m, p]⟩ .f32 0x00000000#32))
        (matmul d none (truncf .bf16 (shapeCast ⟨2, ![m, n]⟩ x hms) hbits) (truncf .bf16 (shapeCast ⟨2, ![n, p]⟩ wr hw) hbits)
          (constant (F := Ideal) ⟨2, ![m, p]⟩ .f32 0x00000000#32)))
      (broadcastTo ⟨2, ![m, p]⟩ (shapeCast ⟨2, ![1, p]⟩ b hc) hb) (ix2 a j)
      = layerAt ms x di wl wr (fun q => b (ix2 (0 : Fin 1) q)) a j := by
  have h := kernel_layer d hr hs hl0 hl1 hr0 hr1 ms x di wl wr b hms hdi hdb hw hc hb hbits a j
  simp only [shapeCast_self] at h ⊢
  exact h

/-- The array program's spelling of the layer (no rectifier) at entry (a, j). -/
theorem host_layer (ms x : FVec Ideal ⟨2, ![m, n]⟩ .f32) (di : FVec Ideal ⟨2, ![m, 1]⟩ .f32)
    (wl wr : FVec Ideal ⟨2, ![n, p]⟩ .f32) (b : FVec Ideal ⟨1, ![p]⟩ .f32)
    (hdi : (⟨2, ![m, 1]⟩ : Shape).BroadcastsInDim ⟨2, ![m, n]⟩ ![0, 1])
    (hd : (⟨1, ![p]⟩ : Shape).BroadcastsInDim ⟨2, ![1, p]⟩ ![1])
    (hbc : (⟨2, ![1, p]⟩ : Shape).BroadcastsInDim ⟨2, ![m, p]⟩ ![0, 1]) (a : Fin m) (j : Fin p) :
    addf (addf (Host.dotGeneral d none (mulf ms (broadcastInDim ⟨2, ![m, n]⟩ ![0, 1] hdi di)) wl)
        (broadcastInDim ⟨2, ![m, p]⟩ ![0, 1] hbc (broadcastInDim ⟨2, ![1, p]⟩ ![1] hd b)))
      (Host.dotGeneral d none x wr) (ix2 a j)
      = layerAt ms x di wl wr (fun q => b (ix1 q)) a j := by
  have e1 := Cert.LibDenseRef.lin_apply d hr hs hl0 hl1 hr0 hr1 (mulf ms (broadcastInDim ⟨2, ![m, n]⟩ ![0, 1] hdi di)) wl b hd hbc a j
  have e2 := host_mm_apply d hr hs hl0 hl1 hr0 hr1 x wr a j
  have e3 : ∀ k : Fin n, mulf ms (broadcastInDim ⟨2, ![m, n]⟩ ![0, 1] hdi di) (ix2 a k) = ms (ix2 a k) * di (ix2 a (0 : Fin 1)) := fun k => by
    rw [mulf_apply]
    refine congrArg (ms (ix2 a k) * ·) (broadcastInDim_apply ![0, 1] hdi di (ix2 a k) (ix2 a (0 : Fin 1)) ?_)
    intro c
    match c with
    | ⟨0, _⟩ =>
      show a.val = if m = 1 then 0 else a.val
      split
      · have := a.isLt; omega
      · rfl
    | ⟨1, _⟩ =>
      show (0 : ℕ) = if (1 : ℕ) = 1 then 0 else k.val
      rw [if_pos rfl]
  simp only [e3] at e1
  rw [addf_apply, e1, e2]
  rfl

end

/-- The rectifier in the vector unit's spelling: the maximum with a scalar zero repeated over the block. -/
theorem kernel_relu_apply {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-- The rectifier in the array program's spelling: the maximum with a scalar zero placed over the whole table. -/
theorem host_relu_apply {s : Shape} (v : FVec Ideal s .f32) (hz : (⟨0, ![]⟩ : Shape).BroadcastsInDim s ![]) (i : s.Idx) :
    maximumf v (broadcastInDim s ![] hz (constant (F := Ideal) ⟨0, ![]⟩ .f32 0x00000000#32)) i = max (v i) 0 := by
  rw [maximumf_apply, Cert.LibDenseRef.scalar_apply]
  exact congrArg (max (v i)) Ideal.ofBits_zero_f32

end Cert.LibSage

end
-- ==== Proof.LibHead.lean ====
/-
  A dense layer with its bias as a one-row table, and three of them chained, read at an entry.

  The vector unit computes  x · w + b  by passing both operands through a change of float format (the identity on the
  extended reals), accumulating the product into a table of zeros and adding the bias row repeated down the rows; a
  rectified layer then takes the maximum with a scalar zero repeated over the table. Entry (a, j) is
  Σ_k x(a, k) · w(k, j) + b(0, j), and its maximum with 0. The head of the network chains three such layers, the first
  two rectified: headAt is its value at an entry, the form both programs' heads are brought to. No finiteness is used.
-/
import Idealize.ShloMosaic.Lib.ValueIdx
import Idealize.ShloMosaic.Lib.Pipeline.Value
import Idealize.ShloMosaic.PureOps.Ideal.Laws
import proofs.«127130_j5153960755249_2_alg».proof.Proof.LibSage

noncomputable section

open scoped BigOperators

namespace Cert.LibHead

open Idealize.ShloMosaic Idealize.ShloMosaic.ValueIdx

/-- Three dense layers chained, the first two rectified, at entry (a, o): tables e (g × d0), w1 (d0 × d1), w2 (d1 × d2),
    w3 (d2 × d3) and the three biases as functions of the column. -/
def headAt {g d0 d1 d2 d3 : Nat} (e : (⟨2, ![g, d0]⟩ : Shape).Idx → EReal) (w1 : (⟨2, ![d0, d1]⟩ : Shape).Idx → EReal) (b1 : Fin d1 → EReal)
    (w2 : (⟨2, ![d1, d2]⟩ : Shape).Idx → EReal) (b2 : Fin d2 → EReal) (w3 : (⟨2, ![d2, d3]⟩ : Shape).Idx → EReal) (b3 : Fin d3 → EReal)
    (a : Fin g) (o : Fin d3) : EReal :=
  (∑ l : Fin d2, max ((∑ k : Fin d1, max ((∑ q : Fin d0, e (ix2 a q) * w1 (ix2 q k)) + b1 k) 0 * w2 (ix2 k l)) + b2 l) 0 * w3 (ix2 l o)) + b3 o

section
variable {m n p : Nat} (d : DotDims ⟨2, ![m, n]⟩ ⟨2, ![n, p]⟩ ⟨2, ![m, p]⟩)
  (hr : d.contr.rank = 1) (hs : d.contr.size ⟨0, by omega⟩ = n)
  (hl0 : ∀ (i : (⟨2, ![m, p]⟩ : Shape).Idx) (q : d.contr.Idx), (d.lhsIdx i q 0).val = (i 0).val)
  (hl1 : ∀ (i : (⟨2, ![m, p]⟩ : Shape).Idx) (q : d.contr.Idx), (d.lhsIdx i q 1).val = (q ⟨0, by omega⟩).val)
  (hr0 : ∀ (i : (⟨2, ![m, p]⟩ : Shape).Idx) (q : d.contr.Idx), (d.rhsIdx i q 0).val = (q ⟨0, by omega⟩).val)
  (hr1 : ∀ (i : (⟨2, ![m, p]⟩ : Shape).Idx) (q : d.contr.Idx), (d.rhsIdx i q 1).val = (i 1).val)

include hr hs hl0 hl1 hr0 hr1

/-- One dense layer at entry (a, j). -/
theorem dense_apply (x : FVec Ideal ⟨2, ![m, n]⟩ .f32) (w : FVec Ideal ⟨2, ![n, p]⟩ .f32) (b : FVec Ideal ⟨2, ![1, p]⟩ .f32)
    (hb : (⟨2, ![1, p]⟩ : Shape).Broadcasts ⟨2, ![m, p]⟩) (hbits : FTy.bf16.bits < FTy.f32.bits) (a : Fin m) (j : Fin p) :
    addf (matmul d none (truncf .bf16 x hbits) (truncf .bf16 w hbits) (constant (F := Ideal) ⟨2, ![m, p]⟩ .f32 0x00000000#32))
      (broadcastTo ⟨2, ![m, p]⟩ b hb) (ix2 a j)
      = (∑ k : Fin n, x (ix2 a k) * w (ix2 k j)) + b (ix2 (0 : Fin 1) j) := by
  rw [addf_apply, Cert.LibSage.mm_apply d hr hs hl0 hl1 hr0 hr1 x w hbits a j, Cert.LibDense.row_apply b hb a j]

/-- One rectified dense layer at entry (a, j). -/
theorem dense_relu_apply (x : FVec Ideal ⟨2, ![m, n]⟩ .f32) (w : FVec Ideal ⟨2, ![n, p]⟩ .f32) (b : FVec Ideal ⟨2, ![1, p]⟩ .f32)
    (hb : (⟨2, ![1, p]⟩ : Shape).Broadcasts ⟨2, ![m, p]⟩) (hbits : FTy.bf16.bits < FTy.f32.bits) (a : Fin m) (j : Fin p) :
    maximumf (addf (matmul d none (truncf .bf16 x hbits) (truncf .bf16 w hbits) (constant (F := Ideal) ⟨2, ![m, p]⟩ .f32 0x00000000#32))
        (broadcastTo ⟨2, ![m, p]⟩ b hb)) (broadcast ⟨2, ![m, p]⟩ (Scalar.ofBits (F := Ideal) .f32 0x00000000#32)) (ix2 a j)
      = max ((∑ k : Fin n, x (ix2 a k) * w (ix2 k j)) + b (ix2 (0 : Fin 1) j)) 0 :=
  (Cert.LibSage.kernel_relu_apply _ _).trans
    (congrArg (max · 0) (dense_apply d hr hs hl0 hl1 hr0 hr1 x w b hb hbits a j))

end

end Cert.LibHead

end
-- ==== Proof.Head.lean ====
/-
  The head's launch: what its output array holds afterwards.

  The last launch has a single grid point whose blocks are the whole arrays: the 64 pooled graph rows, three transposed
  weight tables and three one-row biases. Its body chains three dense layers, the first two rectified,

      out(g, o) = Σ_l max(Σ_k max(Σ_q e(g, q) · w1(q, k) + b1(0, k), 0) · w2(k, l) + b2(0, l), 0) · w3(l, o) + b3(0, o),

  and writes the 64 × 10 result back whole. So the output array ends as that function of the arrays the launch found,
  stated here against any table H with those entries, the contents the launch finds being a parameter.
-/
import proofs.«127130_j5153960755249_2_alg».proof.Proof.Gen.KernelIdeal.Frame
import proofs.«127130_j5153960755249_2_alg».proof.Proof.LibHead
import Idealize.ShloMosaic.Lib.Pipeline.Value
import Idealize.ShloMosaic.Lib.ValueIdx

set_option maxRecDepth 16384

noncomputable section

open scoped BigOperators

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat)

/-! ## The three products' dimension records -/

local notation "dotA" => dot_S64x64_S64x32_S64x32_1_0_0_1_n_n

theorem dotA_l0 (i : S64x32.Idx) (q : DotDims.contr dotA |>.Idx) : (DotDims.lhsIdx dotA i q 0).val = (i 0).val := by
  unfold DotDims.lhsIdx
  rw [dif_neg (show ¬(0 : Fin S64x64.rank) ∈ DotDims.lhsBatch dotA by decide), dif_pos (show (0 : Fin S64x64.rank) ∈ DotDims.lhsNonContracting dotA by decide)]
  rfl
theorem dotA_l1 (i : S64x32.Idx) (q : DotDims.contr dotA |>.Idx) : (DotDims.lhsIdx dotA i q 1).val = (q ⟨0, by decide⟩).val :=
  DotDims.lhsIdx_val_of_single dotA rfl i q
theorem dotA_r0 (i : S64x32.Idx) (q : DotDims.contr dotA |>.Idx) : (DotDims.rhsIdx dotA i q 0).val = (q ⟨0, by decide⟩).val :=
  DotDims.rhsIdx_val_of_single dotA rfl i q
theorem dotA_r1 (i : S64x32.Idx) (q : DotDims.contr dotA |>.Idx) : (DotDims.rhsIdx dotA i q 1).val = (i 1).val := by
  unfold DotDims.rhsIdx
  rw [dif_neg (show ¬(1 : Fin S64x32.rank) ∈ DotDims.rhsBatch dotA by decide), dif_pos (show (1 : Fin S64x32.rank) ∈ DotDims.rhsNonContracting dotA by decide)]
  rfl

local notation "dotB" => dot_S64x32_S32x32_S64x32_1_0_0_1_n_n

theorem dotB_l0 (i : S64x32.Idx) (q : DotDims.contr dotB |>.Idx) : (DotDims.lhsIdx dotB i q 0).val = (i 0).val := by
  unfold DotDims.lhsIdx
  rw [dif_neg (show ¬(0 : Fin S64x32.rank) ∈ DotDims.lhsBatch dotB by decide), dif_pos (show (0 : Fin S64x32.rank) ∈ DotDims.lhsNonContracting dotB by decide)]
  rfl
theorem dotB_l1 (i : S64x32.Idx) (q : DotDims.contr dotB |>.Idx) : (DotDims.lhsIdx dotB i q 1).val = (q ⟨0, by decide⟩).val :=
  DotDims.lhsIdx_val_of_single dotB rfl i q
theorem dotB_r0 (i : S64x32.Idx) (q : DotDims.contr dotB |>.Idx) : (DotDims.rhsIdx dotB i q 0).val = (q ⟨0, by decide⟩).val :=
  DotDims.rhsIdx_val_of_single dotB rfl i q
theorem dotB_r1 (i : S64x32.Idx) (q : DotDims.contr dotB |>.Idx) : (DotDims.rhsIdx dotB i q 1).val = (i 1).val := by
  unfold DotDims.rhsIdx
  rw [dif_neg (show ¬(1 : Fin S32x32.rank) ∈ DotDims.rhsBatch dotB by decide), dif_pos (show (1 : Fin S32x32.rank) ∈ DotDims.rhsNonContracting dotB by decide)]
  rfl

local notation "dotC" => dot_S64x32_S32x10_S64x10_1_0_0_1_n_n

theorem dotC_l0 (i : S64x10.Idx) (q : DotDims.contr dotC |>.Idx) : (DotDims.lhsIdx dotC i q 0).val = (i 0).val := by
  unfold DotDims.lhsIdx
  rw [dif_neg (show ¬(0 : Fin S64x32.rank) ∈ DotDims.lhsBatch dotC by decide), dif_pos (show (0 : Fin S64x32.rank) ∈ DotDims.lhsNonContracting dotC by decide)]
  rfl
theorem dotC_l1 (i : S64x10.Idx) (q : DotDims.contr dotC |>.Idx) : (DotDims.lhsIdx dotC i q 1).val = (q ⟨0, by decide⟩).val :=
  DotDims.lhsIdx_val_of_single dotC rfl i q
theorem dotC_r0 (i : S64x10.Idx) (q : DotDims.contr dotC |>.Idx) : (DotDims.rhsIdx dotC i q 0).val = (q ⟨0, by decide⟩).val :=
  DotDims.rhsIdx_val_of_single dotC rfl i q
theorem dotC_r1 (i : S64x10.Idx) (q : DotDims.contr dotC |>.Idx) : (DotDims.rhsIdx dotC i q 1).val = (i 1).val := by
  unfold DotDims.rhsIdx
  rw [dif_neg (show ¬(1 : Fin S32x10.rank) ∈ DotDims.rhsBatch dotC by decide), dif_pos (show (1 : Fin S32x10.rank) ∈ DotDims.rhsNonContracting dotC by decide)]
  rfl

/-! ## The body's result at an entry -/

theorem zero_off : (![0, 0] : Fin 2 → Nat) = fun _ => 0 := funext fun a => by fin_cases a <;> rfl

/-- Entry (g, o) of what the body leaves in the output block, from the seven input blocks. -/
theorem body_apply (x0 : Vec Ideal S64x64 .f32) (x1 : Vec Ideal S64x32 .f32) (x2 : Vec Ideal S1x32 .f32) (x3 : Vec Ideal S32x32 .f32)
    (x4 : Vec Ideal S1x32 .f32) (x5 : Vec Ideal S32x10 .f32) (x6 : Vec Ideal S1x10 .f32) (g : Fin 64) (o : Fin 10) :
    out3_7 x0 x1 x2 x3 x4 x5 x6 (ix2 g o)
      = Cert.LibHead.headAt x0 x1 (fun k => x2 (ix2 (0 : Fin 1) k)) x3 (fun k => x4 (ix2 (0 : Fin 1) k)) x5
          (fun k => x6 (ix2 (0 : Fin 1) k)) g o := by
  unfold out3_7
  rw [View.canon_unit_zero zero_off]
  simp only [View.ld_unit_zero (S := S64x64) zero_off, View.ld_unit_zero (S := S64x32) zero_off,
    View.ld_unit_zero (S := S1x32) zero_off, View.ld_unit_zero (S := S32x32) zero_off,
    View.ld_unit_zero (S := S32x10) zero_off, View.ld_unit_zero (S := S1x10) zero_off]
  unfold k3_pay1
  simp only [shapeCast_self]
  refine (Cert.LibHead.dense_apply dotC rfl rfl dotC_l0 dotC_l1 dotC_r0 dotC_r1 _ x5 x6 _ _ g o).trans ?_
  unfold Cert.LibHead.headAt
  refine congrArg (· + x6 (ix2 (0 : Fin 1) o)) (Finset.sum_congr rfl fun l _ => congrArg (· * x5 (ix2 l o)) ?_)
  refine (Cert.LibHead.dense_relu_apply dotB rfl rfl dotB_l0 dotB_l1 dotB_r0 dotB_r1 _ x3 x4 _ _ g l).trans ?_
  refine congrArg (max · 0) (congrArg (· + x4 (ix2 (0 : Fin 1) l)) (Finset.sum_congr rfl fun k _ => congrArg (· * x3 (ix2 k l)) ?_))
  exact Cert.LibHead.dense_relu_apply dotA rfl rfl dotA_l0 dotA_l1 dotA_r0 dotA_r1 x0 x1 x2 _ _ g k

/-! ## The blocks are the whole arrays -/

variable (V : (c : Dev nD) → (b : Ref sig .tc) → Buf (Elt Ideal) ((c : Thread nD τ).loc b))

/-- Every window's block index is (0, 0) at the one grid point. -/
theorem idx3_0 : ∀ t : Fin cfg3.N, win3_0.index t (0 : Fin 2) = 0 ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)

theorem read0 (c : Dev nD) (t : Fin cfg3.N) (g : Fin 64) (q : Fin 64) :
    iblk3 V c 0 t (ix2 g q) = V c main_v70 (ix2 g q) := by
  obtain ⟨e0, e1⟩ := idx3_0 t
  show V c main_v70 (((cfg3.win 0).blk t).view.emb (ix2 g q)) = V c main_v70 (ix2 g q)
  refine congrArg (V c main_v70) (funext fun a => Fin.ext ?_)
  match a with
  | ⟨0, _⟩ => show win3_0.index t (0 : Fin 2) * 64 + 1 * g.val = g.val; omega
  | ⟨1, _⟩ => show win3_0.index t (1 : Fin 2) * 64 + 1 * q.val = q.val; omega

theorem read1 (c : Dev nD) (t : Fin cfg3.N) (q : Fin 64) (k : Fin 32) :
    iblk3 V c 1 t (ix2 q k) = V c main_v71 (ix2 q k) := by
  obtain ⟨e0, e1⟩ := idx3_1 t
  show V c main_v71 (((cfg3.win 1).blk t).view.emb (ix2 q k)) = V c main_v71 (ix2 q k)
  refine congrArg (V c main_v71) (funext fun a => Fin.ext ?_)
  match a with
  | ⟨0, _⟩ => show win3_1.index t (0 : Fin 2) * 64 + 1 * q.val = q.val; omega
  | ⟨1, _⟩ => show win3_1.index t (1 : Fin 2) * 32 + 1 * k.val = k.val; omega

theorem read2 (c : Dev nD) (t : Fin cfg3.N) (z : Fin 1) (k : Fin 32) :
    iblk3 V c 2 t (ix2 z k) = V c main_v74 (ix2 z k) := by
  obtain ⟨e0, e1⟩ := idx3_2 t
  show V c main_v74 (((cfg3.win 2).blk t).view.emb (ix2 z k)) = V c main_v74 (ix2 z k)
  refine congrArg (V c main_v74) (funext fun a => Fin.ext ?_)
  match a with
  | ⟨0, _⟩ => show win3_2.index t (0 : Fin 2) * 1 + 1 * z.val = z.val; omega
  | ⟨1, _⟩ => show win3_2.index t (1 : Fin 2) * 32 + 1 * k.val = k.val; omega

theorem read3 (c : Dev nD) (t : Fin cfg3.N) (k : Fin 32) (l : Fin 32) :
    iblk3 V c 3 t (ix2 k l) = V c main_v72 (ix2 k l) := by
  obtain ⟨e0, e1⟩ := idx3_3 t
  show V c main_v72 (((cfg3.win 3).blk t).view.emb (ix2 k l)) = V c main_v72 (ix2 k l)
  refine congrArg (V c main_v72) (funext fun a => Fin.ext ?_)
  match a with
  | ⟨0, _⟩ => show win3_3.index t (0 : Fin 2) * 32 + 1 * k.val = k.val; omega
  | ⟨1, _⟩ => show win3_3.index t (1 : Fin 2) * 32 + 1 * l.val = l.val; omega

theorem read4 (c : Dev nD) (t : Fin cfg3.N) (z : Fin 1) (l : Fin 32) :
    iblk3 V c 4 t (ix2 z l) = V c main_v75 (ix2 z l) := by
  obtain ⟨e0, e1⟩ := idx3_4 t
  show V c main_v75 (((cfg3.win 4).blk t).view.emb (ix2 z l)) = V c main_v75 (ix2 z l)
  refine congrArg (V c main_v75) (funext fun a => Fin.ext ?_)
  match a with
  | ⟨0, _⟩ => show win3_4.index t (0 : Fin 2) * 1 + 1 * z.val = z.val; omega
  | ⟨1, _⟩ => show win3_4.index t (1 : Fin 2) * 32 + 1 * l.val = l.val; omega

theorem read5 (c : Dev nD) (t : Fin cfg3.N) (l : Fin 32) (o : Fin 10) :
    iblk3 V c 5 t (ix2 l o) = V c main_v73 (ix2 l o) := by
  obtain ⟨e0, e1⟩ := idx3_5 t
  show V c main_v73 (((cfg3.win 5).blk t).view.emb (ix2 l o)) = V c main_v73 (ix2 l o)
  refine congrArg (V c main_v73) (funext fun a => Fin.ext ?_)
  match a with
  | ⟨0, _⟩ => show win3_5.index t (0 : Fin 2) * 32 + 1 * l.val = l.val; omega
  | ⟨1, _⟩ => show win3_5.index t (1 : Fin 2) * 10 + 1 * o.val = o.val; omega

theorem read6 (c : Dev nD) (t : Fin cfg3.N) (z : Fin 1) (o : Fin 10) :
    iblk3 V c 6 t (ix2 z o) = V c main_v76 (ix2 z o) := by
  obtain ⟨e0, e1⟩ := idx3_6 t
  show V c main_v76 (((cfg3.win 6).blk t).view.emb (ix2 z o)) = V c main_v76 (ix2 z o)
  refine congrArg (V c main_v76) (funext fun a => Fin.ext ?_)
  match a with
  | ⟨0, _⟩ => show win3_6.index t (0 : Fin 2) * 1 + 1 * z.val = z.val; omega
  | ⟨1, _⟩ => show win3_6.index t (1 : Fin 2) * 10 + 1 * o.val = o.val; omega

theorem emb7 (t : Fin cfg3.N) (g : Fin 64) (o : Fin 10) : ((cfg3.win 7).blk t).view.emb (ix2 g o) = ix2 g o := by
  obtain ⟨e0, e1⟩ := idx3_7 t
  refine funext fun a => Fin.ext ?_
  match a with
  | ⟨0, _⟩ => show win3_7.index t (0 : Fin 2) * 64 + 1 * g.val = g.val; omega
  | ⟨1, _⟩ => show win3_7.index t (1 : Fin 2) * 10 + 1 * o.val = o.val; omega

/-! ## What the point writes back, and the whole array -/

/-- The head's value at entry (g, o) of the arrays the launch finds. -/
def value (c : Dev nD) (g : Fin 64) (o : Fin 10) : EReal :=
  Cert.LibHead.headAt (g := 64) (d0 := 64) (d1 := 32) (d2 := 32) (d3 := 10) (V c main_v70) (V c main_v71) (fun k => V c main_v74 (ix2 (0 : Fin 1) k))
    (V c main_v72) (fun k => V c main_v75 (ix2 (0 : Fin 1) k)) (V c main_v73) (fun k => V c main_v76 (ix2 (0 : Fin 1) k)) g o

theorem flushed_eq (c : Dev nD) (H : S64x10.Idx → EReal) (hH : ∀ (g : Fin 64) (o : Fin 10), H (ix2 g o) = value V c g o)
    (t : Fin cfg3.N) :
    (dat3 V c).flushed 7 t = ((cfg3.win 7).blk t).view.read (Elt Ideal) H := by
  show (cfg3.win 7).cut (grid3.coords t) ((dat3 V c).after 7 t) = _
  rw [after3_7]
  refine funext fun (y : S64x10.Idx) => ?_
  obtain ⟨g, o, rfl⟩ : ∃ (g : Fin 64) (o : Fin 10), y = ix2 g o := ⟨y 0, y 1, eq_ix2 y⟩
  show out3_7 (iblk3 V c 0 t) (iblk3 V c 1 t) (iblk3 V c 2 t) (iblk3 V c 3 t) (iblk3 V c 4 t) (iblk3 V c 5 t) (iblk3 V c 6 t) (ix2 g o)
    = H (((cfg3.win 7).blk t).view.emb (ix2 g o))
  rw [emb7 t g o, hH]
  refine (body_apply (iblk3 V c 0 t) (iblk3 V c 1 t) (iblk3 V c 2 t) (iblk3 V c 3 t) (iblk3 V c 4 t) (iblk3 V c 5 t) (iblk3 V c 6 t) g o).trans ?_
  unfold value Cert.LibHead.headAt
  refine congrArg₂ (· + ·) (Finset.sum_congr rfl fun l _ => congrArg₂ (· * ·) (congrArg (max · 0) (congrArg₂ (· + ·)
    (Finset.sum_congr rfl fun k _ => congrArg₂ (· * ·) (congrArg (max · 0) (congrArg₂ (· + ·)
      (Finset.sum_congr rfl fun q _ => ?_) (read2 V c t 0 k))) (read3 V c t k l))
    (read4 V c t 0 l))) (read5 V c t l o)) (read6 V c t 0 o)
  rw [read0 V c t g q, read1 V c t q k]

theorem mem_blk (t : Fin cfg3.N) (i : S64x10.Idx) :
    i ∈ ((cfg3.win 7).blk t).view.set ↔ ∀ a : Fin 2, win3_7.index t a * S64x10.size a ≤ (i a).val ∧ (i a).val < win3_7.index t a * S64x10.size a + S64x10.size a := by
  show i ∈ ((View.whole main_v77).slice (win3_7.rect t)).set ↔ _
  rw [View.set_slice_whole, Rect.mem_set_unit]
  exact Iff.rfl

theorem cover (i : S64x10.Idx) : ∃ t : Fin cfg3.N, (cfg3.win 7).flush t = true ∧ i ∈ ((cfg3.win 7).blk t).view.set := by
  have hi0 : (i 0).val < 64 := (i 0).isLt
  have hi1 : (i 1).val < 10 := (i 1).isLt
  obtain ⟨e0, e1⟩ := idx3_7 t3_0
  refine ⟨t3_0, flush3_7 t3_0, ?_⟩
  rw [mem_blk]
  intro a
  match a with
  | ⟨0, _⟩ =>
    show win3_7.index t3_0 (0 : Fin 2) * 64 ≤ (i 0).val ∧ (i 0).val < win3_7.index t3_0 (0 : Fin 2) * 64 + 64
    omega
  | ⟨1, _⟩ =>
    show win3_7.index t3_0 (1 : Fin 2) * 10 ≤ (i 1).val ∧ (i 1).val < win3_7.index t3_0 (1 : Fin 2) * 10 + 10
    omega

/-- The output array after the launch is any table whose entries are the head's values of the arrays it found. -/
theorem final (c : Dev nD) (H : S64x10.Idx → EReal) (hH : ∀ (g : Fin 64) (o : Fin 10), H (ix2 g o) = value V c g o) :
    (dat3 V c).arrAt 7 cfg3.N = H :=
  (dat3 V c).arrAt_eq_of_cover 7 H (fun t _ => flushed_eq V c H hH t) cover

end Cert.KernelIdeal.Head

end
-- ==== Proof.Layer2.lean ====
/-
  The third layer's launch: what its output array holds afterwards.

  The launch walks a grid of 20 points; point t works on rows 5000·t … 5000·t + 4999 of the node tables and on the whole
  of the small tables (the two 48 × 64 weight tables and the one-row bias). Its body computes, for its block,

      out(p, j) = ( Σ_k (ms(p, k) · di(p, 0)) · wl(k, j) + Σ_k x(p, k) · wr(k, j) ) + b(0, j)

  and writes the block back. A block's row p is the array's row 5000·t + p, so the blocks tile the 100000 rows: row r
  lies in the block of point r / 5000. Hence the output array ends as ONE function of the arrays the launch found:
  entry (r, j) is the layer's value at (r, j) — stated here against any table H that has those entries, with the
  contents the launch finds as a parameter.
-/
import proofs.«127130_j5153960755249_2_alg».proof.Proof.Gen.KernelIdeal.Frame
import proofs.«127130_j5153960755249_2_alg».proof.Proof.LibSage
import Idealize.ShloMosaic.Lib.Pipeline.Value
import Idealize.ShloMosaic.Lib.ValueIdx

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension record: rows free on the left, columns free on the right, one shared axis -/

local notation "dd" => dot_S5000x48_S48x64_S5000x64_1_0_0_1_n_n

theorem dd_l0 (i : S5000x64.Idx) (q : DotDims.contr dd |>.Idx) : (DotDims.lhsIdx dd i q 0).val = (i 0).val := by
  unfold DotDims.lhsIdx
  rw [dif_neg (show ¬(0 : Fin S5000x48.rank) ∈ DotDims.lhsBatch dd by decide), dif_pos (show (0 : Fin S5000x48.rank) ∈ DotDims.lhsNonContracting dd by decide)]
  rfl
theorem dd_l1 (i : S5000x64.Idx) (q : DotDims.contr dd |>.Idx) : (DotDims.lhsIdx dd i q 1).val = (q ⟨0, by decide⟩).val :=
  DotDims.lhsIdx_val_of_single dd rfl i q
theorem dd_r0 (i : S5000x64.Idx) (q : DotDims.contr dd |>.Idx) : (DotDims.rhsIdx dd i q 0).val = (q ⟨0, by decide⟩).val :=
  DotDims.rhsIdx_val_of_single dd rfl i q
theorem dd_r1 (i : S5000x64.Idx) (q : DotDims.contr dd |>.Idx) : (DotDims.rhsIdx dd i q 1).val = (i 1).val := by
  unfold DotDims.rhsIdx
  rw [dif_neg (show ¬(1 : Fin S48x64.rank) ∈ DotDims.rhsBatch dd by decide), dif_pos (show (1 : Fin S48x64.rank) ∈ DotDims.rhsNonContracting dd by decide)]
  rfl

/-! ## The body's result at an entry of the block -/

theorem zero_off : (![0, 0] : Fin 2 → Nat) = fun _ => 0 := funext fun a => by fin_cases a <;> rfl

/-- Entry (p, j) of what the body leaves in the output block, from the six input blocks. -/
theorem body_apply (x0 : Vec Ideal S5000x48 .f32) (x1 : Vec Ideal S5000x1 .f32) (x2 : Vec Ideal S5000x48 .f32)
    (x3 : Vec Ideal S48x64 .f32) (x4 : Vec Ideal S1x64 .f32) (x5 : Vec Ideal S48x64 .f32) (p : Fin 5000) (j : Fin 64) :
    out2_6 x0 x1 x2 x3 x4 x5 (ix2 p j)
      = Cert.LibSage.layerAt x0 x2 x1 x3 x5 (fun q => x4 (ix2 (0 : Fin 1) q)) p j := by
  unfold out2_6
  rw [View.canon_unit_zero zero_off]
  simp only [View.ld_unit_zero (S := S5000x48) zero_off, View.ld_unit_zero (S := S5000x1) zero_off,
    View.ld_unit_zero (S := S48x64) zero_off, View.ld_unit_zero (S := S1x64) zero_off]
  unfold k2_pay1
  exact Cert.LibSage.kernel_layer_cast dd rfl rfl dd_l0 dd_l1 dd_r0 dd_r1 x0 x2 x1 x3 x5 x4 _ _ _ _ _ _ _ p j

/-! ## The blocks of the windows, read at the array -/

variable (V : (c : Dev nD) → (b : Ref sig .tc) → Buf (Elt Ideal) ((c : Thread nD τ).loc b))

/-- The printed index maps over the grid: the three row-blocked inputs and the output are at block row t, column block
    0; the small tables are whole. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem lt_points (t : Fin cfg2.N) : t.val < 20 := lt_of_lt_of_eq t.isLt N_2

/-- Row p of point t's block is row 5000·t + p of the array. -/
def row (t : Fin cfg2.N) (p : Fin 5000) : Fin 100000 :=
  ⟨5000 * t.val + p.val, by have := lt_points t; have := p.isLt; omega⟩

theorem read0 (c : Dev nD) (t : Fin cfg2.N) (p : Fin 5000) (k : Fin 48) :
    iblk2 V c 0 t (ix2 p k) = V c main_v55 (ix2 (row t p) k) := by
  obtain ⟨e00, e01, -⟩ := idx_facts t
  show V c main_v55 (((cfg2.win 0).blk t).view.emb (ix2 p k)) = V c main_v55 (ix2 (row t p) k)
  refine congrArg (V c main_v55) (funext fun a => Fin.ext ?_)
  match a with
  | ⟨0, _⟩ => show win2_0.index t (0 : Fin 2) * 5000 + 1 * p.val = 5000 * t.val + p.val; omega
  | ⟨1, _⟩ => show win2_0.index t (1 : Fin 2) * 48 + 1 * k.val = k.val; omega

theorem read1 (c : Dev nD) (t : Fin cfg2.N) (p : Fin 5000) :
    iblk2 V c 1 t (ix2 p (0 : Fin 1)) = V c main_v11 (ix2 (row t p) (0 : Fin 1)) := by
  obtain ⟨-, -, e10, e11, -⟩ := idx_facts t
  show V c main_v11 (((cfg2.win 1).blk t).view.emb (ix2 p (0 : Fin 1))) = V c main_v11 (ix2 (row t p) (0 : Fin 1))
  refine congrArg (V c main_v11) (funext fun a => Fin.ext ?_)
  match a with
  | ⟨0, _⟩ => show win2_1.index t (0 : Fin 2) * 5000 + 1 * p.val = 5000 * t.val + p.val; omega
  | ⟨1, _⟩ => show win2_1.index t (1 : Fin 2) * 1 + 1 * 0 = 0; omega

theorem read2 (c : Dev nD) (t : Fin cfg2.N) (p : Fin 5000) (k : Fin 48) :
    iblk2 V c 2 t (ix2 p k) = V c main_v43 (ix2 (row t p) k) := by
  obtain ⟨-, -, -, -, e20, e21, -⟩ := idx_facts t
  show V c main_v43 (((cfg2.win 2).blk t).view.emb (ix2 p k)) = V c main_v43 (ix2 (row t p) k)
  refine congrArg (V c main_v43) (funext fun a => Fin.ext ?_)
  match a with
  | ⟨0, _⟩ => show win2_2.index t (0 : Fin 2) * 5000 + 1 * p.val = 5000 * t.val + p.val; omega
  | ⟨1, _⟩ => show win2_2.index t (1 : Fin 2) * 48 + 1 * k.val = k.val; omega

theorem read3 (c : Dev nD) (t : Fin cfg2.N) (k : Fin 48) (j : Fin 64) :
    iblk2 V c 3 t (ix2 k j) = V c main_v56 (ix2 k j) := by
  obtain ⟨-, -, -, -, -, -, e30, e31, -⟩ := idx_facts t
  show V c main_v56 (((cfg2.win 3).blk t).view.emb (ix2 k j)) = V c main_v56 (ix2 k j)
  refine congrArg (V c main_v56) (funext fun a => Fin.ext ?_)
  match a with
  | ⟨0, _⟩ => show win2_3.index t (0 : Fin 2) * 48 + 1 * k.val = k.val; omega
  | ⟨1, _⟩ => show win2_3.index t (1 : Fin 2) * 64 + 1 * j.val = j.val; omega

theorem read4 (c : Dev nD) (t : Fin cfg2.N) (j : Fin 64) :
    iblk2 V c 4 t (ix2 (0 : Fin 1) j) = V c main_v58 (ix2 (0 : Fin 1) j) := by
  obtain ⟨-, -, -, -, -, -, -, -, e40, e41, -⟩ := idx_facts t
  show V c main_v58 (((cfg2.win 4).blk t).view.emb (ix2 (0 : Fin 1) j)) = V c main_v58 (ix2 (0 : Fin 1) j)
  refine congrArg (V c main_v58) (funext fun a => Fin.ext ?_)
  match a with
  | ⟨0, _⟩ => show win2_4.index t (0 : Fin 2) * 1 + 1 * 0 = 0; omega
  | ⟨1, _⟩ => show win2_4.index t (1 : Fin 2) * 64 + 1 * j.val = j.val; omega

theorem read5 (c : Dev nD) (t : Fin cfg2.N) (k : Fin 48) (j : Fin 64) :
    iblk2 V c 5 t (ix2 k j) = V c main_v57 (ix2 k j) := by
  obtain ⟨-, -, -, -, -, -, -, -, -, -, e50, e51, -⟩ := idx_facts t
  show V c main_v57 (((cfg2.win 5).blk t).view.emb (ix2 k j)) = V c main_v57 (ix2 k j)
  refine congrArg (V c main_v57) (funext fun a => Fin.ext ?_)
  match a with
  | ⟨0, _⟩ => show win2_5.index t (0 : Fin 2) * 48 + 1 * k.val = k.val; omega
  | ⟨1, _⟩ => show win2_5.index t (1 : Fin 2) * 64 + 1 * j.val = j.val; omega

theorem emb6 (t : Fin cfg2.N) (p : Fin 5000) (j : Fin 64) :
    ((cfg2.win 6).blk t).view.emb (ix2 p j) = ix2 (row t p) j := by
  obtain ⟨-, -, -, -, -, -, -, -, -, -, -, -, e60, e61⟩ := idx_facts t
  refine funext fun a => Fin.ext ?_
  match a with
  | ⟨0, _⟩ => show win2_6.index t (0 : Fin 2) * 5000 + 1 * p.val = 5000 * t.val + p.val; omega
  | ⟨1, _⟩ => show win2_6.index t (1 : Fin 2) * 64 + 1 * j.val = j.val; omega

/-! ## What a point writes back, and the whole array -/

/-- The layer's value at entry (r, j) of the arrays the launch finds. -/
def value (c : Dev nD) (r : Fin 100000) (j : Fin 64) : EReal :=
  Cert.LibSage.layerAt (m := 100000) (n := 48) (p := 64) (V c main_v55) (V c main_v43) (V c main_v11) (V c main_v56) (V c main_v57)
    (fun q => V c main_v58 (ix2 (0 : Fin 1) q)) r j

/-- Point t writes back block t of any table whose entries are the layer's values. -/
theorem flushed_eq (c : Dev nD) (H : S100000x64.Idx → EReal) (hH : ∀ (r : Fin 100000) (j : Fin 64), H (ix2 r j) = value V c r j)
    (t : Fin cfg2.N) :
    (dat2 V c).flushed 6 t = ((cfg2.win 6).blk t).view.read (Elt Ideal) H := by
  show (cfg2.win 6).cut (grid2.coords t) ((dat2 V c).after 6 t) = _
  rw [after2_6]
  refine funext fun (y : S5000x64.Idx) => ?_
  obtain ⟨p, j, rfl⟩ : ∃ (p : Fin 5000) (j : Fin 64), y = ix2 p j := ⟨y 0, y 1, eq_ix2 y⟩
  show out2_6 (iblk2 V c 0 t) (iblk2 V c 1 t) (iblk2 V c 2 t) (iblk2 V c 3 t) (iblk2 V c 4 t) (iblk2 V c 5 t) (ix2 p j)
    = H (((cfg2.win 6).blk t).view.emb (ix2 p j))
  rw [emb6 t p j, hH]
  refine (body_apply (iblk2 V c 0 t) (iblk2 V c 1 t) (iblk2 V c 2 t) (iblk2 V c 3 t) (iblk2 V c 4 t) (iblk2 V c 5 t) p j).trans ?_
  unfold value Cert.LibSage.layerAt
  refine congrArg₂ (· + ·) (congrArg₂ (· + ·) (Finset.sum_congr rfl fun k _ => ?_) (read4 V c t j)) (Finset.sum_congr rfl fun k _ => ?_)
  · rw [read0 V c t p k, read1 V c t p, read3 V c t k j]
  · rw [read2 V c t p k, read5 V c t k j]

/-- An index of the output array is in point t's block iff each coordinate is in the block's range. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v59).slice (win2_6.rect t)).set ↔ _
  rw [View.set_slice_whole, Rect.mem_set_unit]
  exact Iff.rfl

/-- The blocks tile the array: row r is in the block of point r / 5000. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, lt_of_lt_of_eq (show (i 0).val / 5000 < 20 by omega) N_2.symm⟩, rfl⟩
  obtain ⟨-, -, -, -, -, -, -, -, -, -, -, -, e60, e61⟩ := idx_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 64 ≤ (i 1).val ∧ (i 1).val < win2_6.index t (1 : Fin 2) * 64 + 64
    omega

/-- The output array after the launch is any table whose entries are the layer's values of the arrays it found. -/
theorem final (c : Dev nD) (H : S100000x64.Idx → EReal) (hH : ∀ (r : Fin 100000) (j : Fin 64), H (ix2 r j) = value V c r j) :
    (dat2 V c).arrAt 6 cfg2.N = H :=
  (dat2 V c).arrAt_eq_of_cover 6 H (fun t _ => flushed_eq V c H hH t) cover

end Cert.KernelIdeal.Layer2

end
-- ==== Proof.Layer1.lean ====
/-
  The second layer's launch: what its output array holds afterwards.

  The launch walks a grid of 20 points; point t works on rows 5000·t … 5000·t + 4999 of the node tables and on the whole
  of the small tables (the two 32 × 48 weight tables and the one-row bias). Its body computes, for its block,

      out(p, j) = max (( Σ_k (ms(p, k) · di(p, 0)) · wl(k, j) + Σ_k x(p, k) · wr(k, j) ) + b(0, j)) 0

  and writes the block back. A block's row p is the array's row 5000·t + p, so the blocks tile the 100000 rows: row r
  lies in the block of point r / 5000. Hence the output array ends as ONE function of the arrays the launch found:
  entry (r, j) is the layer's value at (r, j) — stated here against any table H that has those entries, with the
  contents the launch finds as a parameter.
-/
import proofs.«127130_j5153960755249_2_alg».proof.Proof.Gen.KernelIdeal.Frame
import proofs.«127130_j5153960755249_2_alg».proof.Proof.LibSage
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension record: rows free on the left, columns free on the right, one shared axis -/

local notation "dd" => dot_S5000x32_S32x48_S5000x48_1_0_0_1_n_n

theorem dd_l0 (i : S5000x48.Idx) (q : DotDims.contr dd |>.Idx) : (DotDims.lhsIdx dd i q 0).val = (i 0).val := by
  unfold DotDims.lhsIdx
  rw [dif_neg (show ¬(0 : Fin S5000x32.rank) ∈ DotDims.lhsBatch dd by decide), dif_pos (show (0 : Fin S5000x32.rank) ∈ DotDims.lhsNonContracting dd by decide)]
  rfl
theorem dd_l1 (i : S5000x48.Idx) (q : DotDims.contr dd |>.Idx) : (DotDims.lhsIdx dd i q 1).val = (q ⟨0, by decide⟩).val :=
  DotDims.lhsIdx_val_of_single dd rfl i q
theorem dd_r0 (i : S5000x48.Idx) (q : DotDims.contr dd |>.Idx) : (DotDims.rhsIdx dd i q 0).val = (q ⟨0, by decide⟩).val :=
  DotDims.rhsIdx_val_of_single dd rfl i q
theorem dd_r1 (i : S5000x48.Idx) (q : DotDims.contr dd |>.Idx) : (DotDims.rhsIdx dd i q 1).val = (i 1).val := by
  unfold DotDims.rhsIdx
  rw [dif_neg (show ¬(1 : Fin S32x48.rank) ∈ DotDims.rhsBatch dd by decide), dif_pos (show (1 : Fin S32x48.rank) ∈ DotDims.rhsNonContracting dd by decide)]
  rfl

/-! ## The body's result at an entry of the block -/

theorem zero_off : (![0, 0] : Fin 2 → Nat) = fun _ => 0 := funext fun a => by fin_cases a <;> rfl

/-- Entry (p, j) of what the body leaves in the output block, from the six input blocks. -/
theorem body_apply (x0 : Vec Ideal S5000x32 .f32) (x1 : Vec Ideal S5000x1 .f32) (x2 : Vec Ideal S5000x32 .f32)
    (x3 : Vec Ideal S32x48 .f32) (x4 : Vec Ideal S1x48 .f32) (x5 : Vec Ideal S32x48 .f32) (p : Fin 5000) (j : Fin 48) :
    out1_6 x0 x1 x2 x3 x4 x5 (ix2 p j)
      = max (Cert.LibSage.layerAt x0 x2 x1 x3 x5 (fun q => x4 (ix2 (0 : Fin 1) q)) p j) 0 := by
  unfold out1_6
  rw [View.canon_unit_zero zero_off]
  simp only [View.ld_unit_zero (S := S5000x32) zero_off, View.ld_unit_zero (S := S5000x1) zero_off,
    View.ld_unit_zero (S := S32x48) zero_off, View.ld_unit_zero (S := S1x48) zero_off]
  unfold k1_pay1
  refine (Cert.LibSage.kernel_relu_apply _ _).trans ?_
  refine congrArg (max · 0) ?_
  exact Cert.LibSage.kernel_layer_cast dd rfl rfl dd_l0 dd_l1 dd_r0 dd_r1 x0 x2 x1 x3 x5 x4 _ _ _ _ _ _ _ p j

/-! ## The blocks of the windows, read at the array -/

variable (V : (c : Dev nD) → (b : Ref sig .tc) → Buf (Elt Ideal) ((c : Thread nD τ).loc b))

/-- The printed index maps over the grid: the three row-blocked inputs and the output are at block row t, column block
    0; the small tables are whole. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem lt_points (t : Fin cfg1.N) : t.val < 20 := lt_of_lt_of_eq t.isLt N_1

/-- Row p of point t's block is row 5000·t + p of the array. -/
def row (t : Fin cfg1.N) (p : Fin 5000) : Fin 100000 :=
  ⟨5000 * t.val + p.val, by have := lt_points t; have := p.isLt; omega⟩

theorem read0 (c : Dev nD) (t : Fin cfg1.N) (p : Fin 5000) (k : Fin 32) :
    iblk1 V c 0 t (ix2 p k) = V c main_v39 (ix2 (row t p) k) := by
  obtain ⟨e00, e01, -⟩ := idx_facts t
  show V c main_v39 (((cfg1.win 0).blk t).view.emb (ix2 p k)) = V c main_v39 (ix2 (row t p) k)
  refine congrArg (V c main_v39) (funext fun a => Fin.ext ?_)
  match a with
  | ⟨0, _⟩ => show win1_0.index t (0 : Fin 2) * 5000 + 1 * p.val = 5000 * t.val + p.val; omega
  | ⟨1, _⟩ => show win1_0.index t (1 : Fin 2) * 32 + 1 * k.val = k.val; omega

theorem read1 (c : Dev nD) (t : Fin cfg1.N) (p : Fin 5000) :
    iblk1 V c 1 t (ix2 p (0 : Fin 1)) = V c main_v11 (ix2 (row t p) (0 : Fin 1)) := by
  obtain ⟨-, -, e10, e11, -⟩ := idx_facts t
  show V c main_v11 (((cfg1.win 1).blk t).view.emb (ix2 p (0 : Fin 1))) = V c main_v11 (ix2 (row t p) (0 : Fin 1))
  refine congrArg (V c main_v11) (funext fun a => Fin.ext ?_)
  match a with
  | ⟨0, _⟩ => show win1_1.index t (0 : Fin 2) * 5000 + 1 * p.val = 5000 * t.val + p.val; omega
  | ⟨1, _⟩ => show win1_1.index t (1 : Fin 2) * 1 + 1 * 0 = 0; omega

theorem read2 (c : Dev nD) (t : Fin cfg1.N) (p : Fin 5000) (k : Fin 32) :
    iblk1 V c 2 t (ix2 p k) = V c main_v27 (ix2 (row t p) k) := by
  obtain ⟨-, -, -, -, e20, e21, -⟩ := idx_facts t
  show V c main_v27 (((cfg1.win 2).blk t).view.emb (ix2 p k)) = V c main_v27 (ix2 (row t p) k)
  refine congrArg (V c main_v27) (funext fun a => Fin.ext ?_)
  match a with
  | ⟨0, _⟩ => show win1_2.index t (0 : Fin 2) * 5000 + 1 * p.val = 5000 * t.val + p.val; omega
  | ⟨1, _⟩ => show win1_2.index t (1 : Fin 2) * 32 + 1 * k.val = k.val; omega

theorem read3 (c : Dev nD) (t : Fin cfg1.N) (k : Fin 32) (j : Fin 48) :
    iblk1 V c 3 t (ix2 k j) = V c main_v40 (ix2 k j) := by
  obtain ⟨-, -, -, -, -, -, e30, e31, -⟩ := idx_facts t
  show V c main_v40 (((cfg1.win 3).blk t).view.emb (ix2 k j)) = V c main_v40 (ix2 k j)
  refine congrArg (V c main_v40) (funext fun a => Fin.ext ?_)
  match a with
  | ⟨0, _⟩ => show win1_3.index t (0 : Fin 2) * 32 + 1 * k.val = k.val; omega
  | ⟨1, _⟩ => show win1_3.index t (1 : Fin 2) * 48 + 1 * j.val = j.val; omega

theorem read4 (c : Dev nD) (t : Fin cfg1.N) (j : Fin 48) :
    iblk1 V c 4 t (ix2 (0 : Fin 1) j) = V c main_v42 (ix2 (0 : Fin 1) j) := by
  obtain ⟨-, -, -, -, -, -, -, -, e40, e41, -⟩ := idx_facts t
  show V c main_v42 (((cfg1.win 4).blk t).view.emb (ix2 (0 : Fin 1) j)) = V c main_v42 (ix2 (0 : Fin 1) j)
  refine congrArg (V c main_v42) (funext fun a => Fin.ext ?_)
  match a with
  | ⟨0, _⟩ => show win1_4.index t (0 : Fin 2) * 1 + 1 * 0 = 0; omega
  | ⟨1, _⟩ => show win1_4.index t (1 : Fin 2) * 48 + 1 * j.val = j.val; omega

theorem read5 (c : Dev nD) (t : Fin cfg1.N) (k : Fin 32) (j : Fin 48) :
    iblk1 V c 5 t (ix2 k j) = V c main_v41 (ix2 k j) := by
  obtain ⟨-, -, -, -, -, -, -, -, -, -, e50, e51, -⟩ := idx_facts t
  show V c main_v41 (((cfg1.win 5).blk t).view.emb (ix2 k j)) = V c main_v41 (ix2 k j)
  refine congrArg (V c main_v41) (funext fun a => Fin.ext ?_)
  match a with
  | ⟨0, _⟩ => show win1_5.index t (0 : Fin 2) * 32 + 1 * k.val = k.val; omega
  | ⟨1, _⟩ => show win1_5.index t (1 : Fin 2) * 48 + 1 * j.val = j.val; omega

theorem emb6 (t : Fin cfg1.N) (p : Fin 5000) (j : Fin 48) :
    ((cfg1.win 6).blk t).view.emb (ix2 p j) = ix2 (row t p) j := by
  obtain ⟨-, -, -, -, -, -, -, -, -, -, -, -, e60, e61⟩ := idx_facts t
  refine funext fun a => Fin.ext ?_
  match a with
  | ⟨0, _⟩ => show win1_6.index t (0 : Fin 2) * 5000 + 1 * p.val = 5000 * t.val + p.val; omega
  | ⟨1, _⟩ => show win1_6.index t (1 : Fin 2) * 48 + 1 * j.val = j.val; omega

/-! ## What a point writes back, and the whole array -/

/-- The layer's value at entry (r, j) of the arrays the launch finds. -/
def value (c : Dev nD) (r : Fin 100000) (j : Fin 48) : EReal :=
  max (Cert.LibSage.layerAt (m := 100000) (n := 32) (p := 48) (V c main_v39) (V c main_v27) (V c main_v11) (V c main_v40) (V c main_v41)
    (fun q => V c main_v42 (ix2 (0 : Fin 1) q)) r j) 0

/-- Point t writes back block t of any table whose entries are the layer's values. -/
theorem flushed_eq (c : Dev nD) (H : S100000x48.Idx → EReal) (hH : ∀ (r : Fin 100000) (j : Fin 48), H (ix2 r j) = value V c r j)
    (t : Fin cfg1.N) :
    (dat1 V c).flushed 6 t = ((cfg1.win 6).blk t).view.read (Elt Ideal) H := by
  show (cfg1.win 6).cut (grid1.coords t) ((dat1 V c).after 6 t) = _
  rw [after1_6]
  refine funext fun (y : S5000x48.Idx) => ?_
  obtain ⟨p, j, rfl⟩ : ∃ (p : Fin 5000) (j : Fin 48), y = ix2 p j := ⟨y 0, y 1, eq_ix2 y⟩
  show out1_6 (iblk1 V c 0 t) (iblk1 V c 1 t) (iblk1 V c 2 t) (iblk1 V c 3 t) (iblk1 V c 4 t) (iblk1 V c 5 t) (ix2 p j)
    = H (((cfg1.win 6).blk t).view.emb (ix2 p j))
  rw [emb6 t p j, hH]
  refine (body_apply (iblk1 V c 0 t) (iblk1 V c 1 t) (iblk1 V c 2 t) (iblk1 V c 3 t) (iblk1 V c 4 t) (iblk1 V c 5 t) p j).trans ?_
  unfold value Cert.LibSage.layerAt
  refine congrArg (max · 0) ?_
  refine congrArg₂ (· + ·) (congrArg₂ (· + ·) (Finset.sum_congr rfl fun k _ => ?_) (read4 V c t j)) (Finset.sum_congr rfl fun k _ => ?_)
  · rw [read0 V c t p k, read1 V c t p, read3 V c t k j]
  · rw [read2 V c t p k, read5 V c t k j]

/-- An index of the output array is in point t's block iff each coordinate is in the block's range. -/
theorem mem_blk (t : Fin cfg1.N) (i : S100000x48.Idx) :
    i ∈ ((cfg1.win 6).blk t).view.set ↔ ∀ a : Fin 2, win1_6.index t a * S5000x48.size a ≤ (i a).val ∧ (i a).val < win1_6.index t a * S5000x48.size a + S5000x48.size a := by
  show i ∈ ((View.whole main_v43).slice (win1_6.rect t)).set ↔ _
  rw [View.set_slice_whole, Rect.mem_set_unit]
  exact Iff.rfl

/-- The blocks tile the array: row r is in the block of point r / 5000. -/
theorem cover (i : S100000x48.Idx) : ∃ t : Fin cfg1.N, (cfg1.win 6).flush t = true ∧ i ∈ ((cfg1.win 6).blk t).view.set := by
  have hi0 : (i 0).val < 100000 := (i 0).isLt
  have hi1 : (i 1).val < 48 := (i 1).isLt
  obtain ⟨t, ht⟩ : ∃ t : Fin cfg1.N, t.val = (i 0).val / 5000 :=
    ⟨⟨(i 0).val / 5000, lt_of_lt_of_eq (show (i 0).val / 5000 < 20 by omega) N_1.symm⟩, rfl⟩
  obtain ⟨-, -, -, -, -, -, -, -, -, -, -, -, e60, e61⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 48 ≤ (i 1).val ∧ (i 1).val < win1_6.index t (1 : Fin 2) * 48 + 48
    omega

/-- The output array after the launch is any table whose entries are the layer's values of the arrays it found. -/
theorem final (c : Dev nD) (H : S100000x48.Idx → EReal) (hH : ∀ (r : Fin 100000) (j : Fin 48), H (ix2 r j) = value V c r j) :
    (dat1 V c).arrAt 6 cfg1.N = H :=
  (dat1 V c).arrAt_eq_of_cover 6 H (fun t _ => flushed_eq V c H hH t) cover

end Cert.KernelIdeal.Layer1

end
-- ==== Proof.Layer0.lean ====
/-
  The first layer's launch: what its output array holds afterwards.

  The launch walks a grid of 20 points; point t works on rows 5000·t … 5000·t + 4999 of the node tables and on the whole
  of the small tables (the two 64 × 32 weight tables and the one-row bias). Its body computes, for its block,

      out(p, j) = max (( Σ_k (ms(p, k) · di(p, 0)) · wl(k, j) + Σ_k x(p, k) · wr(k, j) ) + b(0, j)) 0

  and writes the block back. A block's row p is the array's row 5000·t + p, so the blocks tile the 100000 rows: row r
  lies in the block of point r / 5000. Hence the output array ends as ONE function of the arrays the launch found:
  entry (r, j) is the layer's value at (r, j) — stated here against any table H that has those entries, with the
  contents the launch finds as a parameter.
-/
import proofs.«127130_j5153960755249_2_alg».proof.Proof.Gen.KernelIdeal.Frame
import proofs.«127130_j5153960755249_2_alg».proof.Proof.LibSage
import Idealize.ShloMosaic.Lib.Pipeline.Value
import Idealize.ShloMosaic.Lib.ValueIdx

set_option maxRecDepth 16384

noncomputable section

open scoped BigOperators

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension record: rows free on the left, columns free on the right, one shared axis -/

local notation "dd" => dot_S5000x64_S64x32_S5000x32_1_0_0_1_n_n

theorem dd_l0 (i : S5000x32.Idx) (q : DotDims.contr dd |>.Idx) : (DotDims.lhsIdx dd i q 0).val = (i 0).val := by
  unfold DotDims.lhsIdx
  rw [dif_neg (show ¬(0 : Fin S5000x64.rank) ∈ DotDims.lhsBatch dd by decide), dif_pos (show (0 : Fin S5000x64.rank) ∈ DotDims.lhsNonContracting dd by decide)]
  rfl
theorem dd_l1 (i : S5000x32.Idx) (q : DotDims.contr dd |>.Idx) : (DotDims.lhsIdx dd i q 1).val = (q ⟨0, by decide⟩).val :=
  DotDims.lhsIdx_val_of_single dd rfl i q
theorem dd_r0 (i : S5000x32.Idx) (q : DotDims.contr dd |>.Idx) : (DotDims.rhsIdx dd i q 0).val = (q ⟨0, by decide⟩).val :=
  DotDims.rhsIdx_val_of_single dd rfl i q
theorem dd_r1 (i : S5000x32.Idx) (q : DotDims.contr dd |>.Idx) : (DotDims.rhsIdx dd i q 1).val = (i 1).val := by
  unfold DotDims.rhsIdx
  rw [dif_neg (show ¬(1 : Fin S64x32.rank) ∈ DotDims.rhsBatch dd by decide), dif_pos (show (1 : Fin S64x32.rank) ∈ DotDims.rhsNonContracting dd by decide)]
  rfl

/-! ## The body's result at an entry of the block -/

theorem zero_off : (![0, 0] : Fin 2 → Nat) = fun _ => 0 := funext fun a => by fin_cases a <;> rfl

/-- Entry (p, j) of what the body leaves in the output block, from the six input blocks. -/
theorem body_apply (x0 : Vec Ideal S5000x64 .f32) (x1 : Vec Ideal S5000x1 .f32) (x2 : Vec Ideal S5000x64 .f32)
    (x3 : Vec Ideal S64x32 .f32) (x4 : Vec Ideal S1x32 .f32) (x5 : Vec Ideal S64x32 .f32) (p : Fin 5000) (j : Fin 32) :
    out0_6 x0 x1 x2 x3 x4 x5 (ix2 p j)
      = max (Cert.LibSage.layerAt x0 x2 x1 x3 x5 (fun q => x4 (ix2 (0 : Fin 1) q)) p j) 0 := by
  unfold out0_6
  rw [View.canon_unit_zero zero_off]
  simp only [View.ld_unit_zero (S := S5000x64) zero_off, View.ld_unit_zero (S := S5000x1) zero_off,
    View.ld_unit_zero (S := S64x32) zero_off, View.ld_unit_zero (S := S1x32) zero_off]
  unfold k0_pay1
  refine (Cert.LibSage.kernel_relu_apply _ _).trans ?_
  refine congrArg (max · 0) ?_
  exact Cert.LibSage.kernel_layer dd rfl rfl dd_l0 dd_l1 dd_r0 dd_r1 x0 x2 x1 x3 x5 x4 _ _ _ _ _ _ _ p j

/-! ## The blocks of the windows, read at the array -/

variable (V : (c : Dev nD) → (b : Ref sig .tc) → Buf (Elt Ideal) ((c : Thread nD τ).loc b))

/-- The printed index maps over the grid: the three row-blocked inputs and the output are at block row t, column block
    0; the small tables are whole. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt_points (t : Fin cfg0.N) : t.val < 20 := lt_of_lt_of_eq t.isLt N_0

/-- Row p of point t's block is row 5000·t + p of the array. -/
def row (t : Fin cfg0.N) (p : Fin 5000) : Fin 100000 :=
  ⟨5000 * t.val + p.val, by have := lt_points t; have := p.isLt; omega⟩

theorem read0 (c : Dev nD) (t : Fin cfg0.N) (p : Fin 5000) (k : Fin 64) :
    iblk0 V c 0 t (ix2 p k) = V c main_v23 (ix2 (row t p) k) := by
  obtain ⟨e00, e01, -⟩ := idx_facts t
  show V c main_v23 (((cfg0.win 0).blk t).view.emb (ix2 p k)) = V c main_v23 (ix2 (row t p) k)
  refine congrArg (V c main_v23) (funext fun a => Fin.ext ?_)
  match a with
  | ⟨0, _⟩ => show win0_0.index t (0 : Fin 2) * 5000 + 1 * p.val = 5000 * t.val + p.val; omega
  | ⟨1, _⟩ => show win0_0.index t (1 : Fin 2) * 64 + 1 * k.val = k.val; omega

theorem read1 (c : Dev nD) (t : Fin cfg0.N) (p : Fin 5000) :
    iblk0 V c 1 t (ix2 p (0 : Fin 1)) = V c main_v11 (ix2 (row t p) (0 : Fin 1)) := by
  obtain ⟨-, -, e10, e11, -⟩ := idx_facts t
  show V c main_v11 (((cfg0.win 1).blk t).view.emb (ix2 p (0 : Fin 1))) = V c main_v11 (ix2 (row t p) (0 : Fin 1))
  refine congrArg (V c main_v11) (funext fun a => Fin.ext ?_)
  match a with
  | ⟨0, _⟩ => show win0_1.index t (0 : Fin 2) * 5000 + 1 * p.val = 5000 * t.val + p.val; omega
  | ⟨1, _⟩ => show win0_1.index t (1 : Fin 2) * 1 + 1 * 0 = 0; omega

theorem read2 (c : Dev nD) (t : Fin cfg0.N) (p : Fin 5000) (k : Fin 64) :
    iblk0 V c 2 t (ix2 p k) = V c main_arg0 (ix2 (row t p) k) := by
  obtain ⟨-, -, -, -, e20, e21, -⟩ := idx_facts t
  show V c main_arg0 (((cfg0.win 2).blk t).view.emb (ix2 p k)) = V c main_arg0 (ix2 (row t p) k)
  refine congrArg (V c main_arg0) (funext fun a => Fin.ext ?_)
  match a with
  | ⟨0, _⟩ => show win0_2.index t (0 : Fin 2) * 5000 + 1 * p.val = 5000 * t.val + p.val; omega
  | ⟨1, _⟩ => show win0_2.index t (1 : Fin 2) * 64 + 1 * k.val = k.val; omega

theorem read3 (c : Dev nD) (t : Fin cfg0.N) (k : Fin 64) (j : Fin 32) :
    iblk0 V c 3 t (ix2 k j) = V c main_v24 (ix2 k j) := by
  obtain ⟨-, -, -, -, -, -, e30, e31, -⟩ := idx_facts t
  show V c main_v24 (((cfg0.win 3).blk t).view.emb (ix2 k j)) = V c main_v24 (ix2 k j)
  refine congrArg (V c main_v24) (funext fun a => Fin.ext ?_)
  match a with
  | ⟨0, _⟩ => show win0_3.index t (0 : Fin 2) * 64 + 1 * k.val = k.val; omega
  | ⟨1, _⟩ => show win0_3.index t (1 : Fin 2) * 32 + 1 * j.val = j.val; omega

theorem read4 (c : Dev nD) (t : Fin cfg0.N) (j : Fin 32) :
    iblk0 V c 4 t (ix2 (0 : Fin 1) j) = V c main_v26 (ix2 (0 : Fin 1) j) := by
  obtain ⟨-, -, -, -, -, -, -, -, e40, e41, -⟩ := idx_facts t
  show V c main_v26 (((cfg0.win 4).blk t).view.emb (ix2 (0 : Fin 1) j)) = V c main_v26 (ix2 (0 : Fin 1) j)
  refine congrArg (V c main_v26) (funext fun a => Fin.ext ?_)
  match a with
  | ⟨0, _⟩ => show win0_4.index t (0 : Fin 2) * 1 + 1 * 0 = 0; omega
  | ⟨1, _⟩ => show win0_4.index t (1 : Fin 2) * 32 + 1 * j.val = j.val; omega

theorem read5 (c : Dev nD) (t : Fin cfg0.N) (k : Fin 64) (j : Fin 32) :
    iblk0 V c 5 t (ix2 k j) = V c main_v25 (ix2 k j) := by
  obtain ⟨-, -, -, -, -, -, -, -, -, -, e50, e51, -⟩ := idx_facts t
  show V c main_v25 (((cfg0.win 5).blk t).view.emb (ix2 k j)) = V c main_v25 (ix2 k j)
  refine congrArg (V c main_v25) (funext fun a => Fin.ext ?_)
  match a with
  | ⟨0, _⟩ => show win0_5.index t (0 : Fin 2) * 64 + 1 * k.val = k.val; omega
  | ⟨1, _⟩ => show win0_5.index t (1 : Fin 2) * 32 + 1 * j.val = j.val; omega

theorem emb6 (t : Fin cfg0.N) (p : Fin 5000) (j : Fin 32) :
    ((cfg0.win 6).blk t).view.emb (ix2 p j) = ix2 (row t p) j := by
  obtain ⟨-, -, -, -, -, -, -, -, -, -, -, -, e60, e61⟩ := idx_facts t
  refine funext fun a => Fin.ext ?_
  match a with
  | ⟨0, _⟩ => show win0_6.index t (0 : Fin 2) * 5000 + 1 * p.val = 5000 * t.val + p.val; omega
  | ⟨1, _⟩ => show win0_6.index t (1 : Fin 2) * 32 + 1 * j.val = j.val; omega

/-! ## What a point writes back, and the whole array -/

/-- The layer's value at entry (r, j) of the arrays the launch finds. -/
def value (c : Dev nD) (r : Fin 100000) (j : Fin 32) : EReal :=
  max (Cert.LibSage.layerAt (m := 100000) (n := 64) (p := 32) (V c main_v23) (V c main_arg0) (V c main_v11) (V c main_v24) (V c main_v25)
    (fun q => V c main_v26 (ix2 (0 : Fin 1) q)) r j) 0

/-- Point t writes back block t of any table whose entries are the layer's values. -/
theorem flushed_eq (c : Dev nD) (H : S100000x32.Idx → EReal) (hH : ∀ (r : Fin 100000) (j : Fin 32), H (ix2 r j) = value V c r j)
    (t : Fin cfg0.N) :
    (dat0 V c).flushed 6 t = ((cfg0.win 6).blk t).view.read (Elt Ideal) H := by
  show (cfg0.win 6).cut (grid0.coords t) ((dat0 V c).after 6 t) = _
  rw [after0_6]
  refine funext fun (y : S5000x32.Idx) => ?_
  obtain ⟨p, j, rfl⟩ : ∃ (p : Fin 5000) (j : Fin 32), y = ix2 p j := ⟨y 0, y 1, eq_ix2 y⟩
  show out0_6 (iblk0 V c 0 t) (iblk0 V c 1 t) (iblk0 V c 2 t) (iblk0 V c 3 t) (iblk0 V c 4 t) (iblk0 V c 5 t) (ix2 p j)
    = H (((cfg0.win 6).blk t).view.emb (ix2 p j))
  rw [emb6 t p j, hH]
  refine (body_apply (iblk0 V c 0 t) (iblk0 V c 1 t) (iblk0 V c 2 t) (iblk0 V c 3 t) (iblk0 V c 4 t) (iblk0 V c 5 t) p j).trans ?_
  unfold value Cert.LibSage.layerAt
  refine congrArg (max · 0) ?_
  refine congrArg₂ (· + ·) (congrArg₂ (· + ·) (Finset.sum_congr rfl fun k _ => ?_) (read4 V c t j)) (Finset.sum_congr rfl fun k _ => ?_)
  · rw [read0 V c t p k, read1 V c t p, read3 V c t k j]
  · rw [read2 V c t p k, read5 V c t k j]

/-- An index of the output array is in point t's block iff each coordinate is in the block's range. -/
theorem mem_blk (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v27).slice (win0_6.rect t)).set ↔ _
  rw [View.set_slice_whole, Rect.mem_set_unit]
  exact Iff.rfl

/-- The blocks tile the array: row r is in the block of point r / 5000. -/
theorem cover (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, lt_of_lt_of_eq (show (i 0).val / 5000 < 20 by omega) N_0.symm⟩, rfl⟩
  obtain ⟨-, -, -, -, -, -, -, -, -, -, -, -, e60, e61⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 32 ≤ (i 1).val ∧ (i 1).val < win0_6.index t (1 : Fin 2) * 32 + 32
    omega

/-- The output array after the launch is any table whose entries are the layer's values of the arrays it found. -/
theorem final (c : Dev nD) (H : S100000x32.Idx → EReal) (hH : ∀ (r : Fin 100000) (j : Fin 32), H (ix2 r j) = value V c r j) :
    (dat0 V c).arrAt 6 cfg0.N = H :=
  (dat0 V c).arrAt_eq_of_cover 6 H (fun t _ => flushed_eq V c H hH t) cover

end Cert.KernelIdeal.Layer0

end
-- ==== Proof.Casts.lean ====
/-
  Typed references: writing a value at one and reading it back.

  A function the array program calls is printed over typed references: each of its operations writes its result through
  the reference's transport from the value's type to the buffer's contents type, and reads its operands through the
  transport back. The two types are the same type — the buffer's type is the value's, by computation — so each transport
  is the identity: a value written and read back at one reference is itself, and at a literal reference a single
  transport is the identity outright. Stated here for the references of the two calls of the clamp.
-/
import proofs.«127130_j5153960755249_2_alg».proof.Proof.Gen.KernelIdeal.Frame
import Idealize.ShloMosaic.PureOps.Ideal

noncomputable section

namespace Cert.KernelIdeal.Whole

open Cert.KernelIdeal Cert.KernelIdeal.Gen
open Idealize.ShloMosaic Idealize.ShloMosaic.TcCoe Idealize.ShloMosaic.StableHlo

/-- Contents written at a typed reference and read back at it are unchanged. -/
theorem ofBuf_toBuf {T : BufTy} (x : StableHlo.TRef sig T) (v : T.Contents (Elt Ideal)) : x.ofBuf (x.toBuf v) = v := by
  obtain ⟨r, h, h2, h3⟩ := x
  subst h
  rfl

/-! The first call (the node degrees): the scalar bound, the degree vector, the clamped result. -/

theorem ofBuf_cst_1 (p1 p2 p3) (w : (⟨S_, .f32⟩ : BufTy).Contents (Elt Ideal)) :
    (StableHlo.TRef.of main_cst_1 p1 p2 p3 : StableHlo.TRef sig ⟨S_, .f32⟩).ofBuf w = w := rfl
theorem ofBuf_v7 (p1 p2 p3) (w : (⟨S100000, .f32⟩ : BufTy).Contents (Elt Ideal)) :
    (StableHlo.TRef.of main_v7 p1 p2 p3 : StableHlo.TRef sig ⟨S100000, .f32⟩).ofBuf w = w := rfl
theorem toBuf_v8 (p1 p2 p3) (w : (⟨S100000, .f32⟩ : BufTy).Contents (Elt Ideal)) :
    (StableHlo.TRef.of main_v8 p1 p2 p3 : StableHlo.TRef sig ⟨S100000, .f32⟩).toBuf w = w := rfl

/-! The second call (the graph sizes). -/

theorem ofBuf_cst_14 (p1 p2 p3) (w : (⟨S_, .f32⟩ : BufTy).Contents (Elt Ideal)) :
    (StableHlo.TRef.of main_cst_14 p1 p2 p3 : StableHlo.TRef sig ⟨S_, .f32⟩).ofBuf w = w := rfl
theorem ofBuf_v66 (p1 p2 p3) (w : (⟨S64, .f32⟩ : BufTy).Contents (Elt Ideal)) :
    (StableHlo.TRef.of main_v66 p1 p2 p3 : StableHlo.TRef sig ⟨S64, .f32⟩).ofBuf w = w := rfl
theorem toBuf_v67 (p1 p2 p3) (w : (⟨S64, .f32⟩ : BufTy).Contents (Elt Ideal)) :
    (StableHlo.TRef.of main_v67 p1 p2 p3 : StableHlo.TRef sig ⟨S64, .f32⟩).toBuf w = w := rfl

end Cert.KernelIdeal.Whole

end
-- ==== Proof.Entry0.lean ====
/-
  What the first layer's launch finds in its arrays.

  Before the first launch the program computes, by array operations only: the two rows of the edge table as index
  vectors, the in-degree of every node (a scatter-add of ones), its reciprocal after a clamp below at 1, laid as one
  column; the neighbour rows gathered at the (wrapped) source indices and summed at the destination indices; and the
  two weight tables transposed, the bias laid as one row. The reference computes the same values by the same
  operations, except that the gathered table passes through a change of float format and back, which is the identity on
  the extended reals. So each of these arrays IS the reference's stage of the same arguments.
-/
import proofs.«127130_j5153960755249_2_alg».proof.Proof.Gen.KernelIdeal.Frame
import proofs.«127130_j5153960755249_2_alg».proof.Proof.Gen.ReferenceIdeal.Read
import proofs.«127130_j5153960755249_2_alg».proof.Proof.Casts
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The program's arguments on core c. -/
abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)
abbrev arg6 := m ((c : Thread nD τ).loc main_arg6)
abbrev arg7 := m ((c : Thread nD τ).loc main_arg7)
abbrev arg8 := m ((c : Thread nD τ).loc main_arg8)
abbrev arg9 := m ((c : Thread nD τ).loc main_arg9)
abbrev arg10 := m ((c : Thread nD τ).loc main_arg10)
abbrev arg11 := m ((c : Thread nD τ).loc main_arg11)
abbrev arg12 := m ((c : Thread nD τ).loc main_arg12)
abbrev arg13 := m ((c : Thread nD τ).loc main_arg13)
abbrev arg14 := m ((c : Thread nD τ).loc main_arg14)
abbrev arg15 := m ((c : Thread nD τ).loc main_arg15)
abbrev arg16 := m ((c : Thread nD τ).loc main_arg16)
abbrev arg17 := m ((c : Thread nD τ).loc main_arg17)

/-- The source index vector. -/
theorem src_eq : W3 m ρ c (Proc.devRef .tc main_v1) = Cert.ReferenceIdeal.Read.val_main_v1 (F := Ideal) (arg1 m c) := by
  show StableHlo.after hostOps0_2 (StableHlo.after hostOps0_1 (StableHlo.after hostOps0 (W0 m ρ c))) (Proc.devRef .tc main_v1) = _
  after_results
  unfold Cert.ReferenceIdeal.Read.val_main_v1 Cert.ReferenceIdeal.Read.val_main_v0
  rfl

/-- The destination index vector. -/
theorem dst_eq : W3 m ρ c (Proc.devRef .tc main_v3) = Cert.ReferenceIdeal.Read.val_main_v3 (F := Ideal) (arg1 m c) := by
  show StableHlo.after hostOps0_2 (StableHlo.after hostOps0_1 (StableHlo.after hostOps0 (W0 m ρ c))) (Proc.devRef .tc main_v3) = _
  after_results
  unfold Cert.ReferenceIdeal.Read.val_main_v3 Cert.ReferenceIdeal.Read.val_main_v2
  rfl

/-- The reciprocal degrees, one column. -/
theorem deg_eq : W3 m ρ c (Proc.devRef .tc main_v11) = Cert.ReferenceIdeal.Read.val_main_v11 (F := Ideal) (arg1 m c) := by
  show StableHlo.after hostOps0_2 (StableHlo.after hostOps0_1 (StableHlo.after hostOps0 (W0 m ρ c))) (Proc.devRef .tc main_v11) = _
  after_results
  simp only [ofBuf_toBuf, ofBuf_cst_1, ofBuf_v7, toBuf_v8]
  unfold Cert.ReferenceIdeal.Read.val_main_v11 Cert.ReferenceIdeal.Read.val_main_v10 Cert.ReferenceIdeal.Read.val_main_v9 Cert.ReferenceIdeal.Read.val_main_cst_2 Cert.ReferenceIdeal.Read.val_main_v8 Cert.ReferenceIdeal.Read.val_main_call0_v1 Cert.ReferenceIdeal.Read.val_main_call0_v0 Cert.ReferenceIdeal.Read.val_main_cst_1 Cert.ReferenceIdeal.Read.val_main_v7 Cert.ReferenceIdeal.Read.val_main_v5 Cert.ReferenceIdeal.Read.val_main_cst_0 Cert.ReferenceIdeal.Read.val_main_v6 Cert.ReferenceIdeal.Read.val_main_v3 Cert.ReferenceIdeal.Read.val_main_v2 Cert.ReferenceIdeal.Read.val_main_v4 Cert.ReferenceIdeal.Read.val_main_cst
  rfl

/-- The nodes' own rows: the first argument, untouched. -/
theorem x_eq : W3 m ρ c (Proc.devRef .tc main_arg0) = arg0 m c := by
  show StableHlo.after hostOps0_2 (StableHlo.after hostOps0_1 (StableHlo.after hostOps0 (W0 m ρ c))) (Proc.devRef .tc main_arg0) = _
  after_results

/-- The neighbour weights, transposed. -/
theorem wl_eq : W3 m ρ c (Proc.devRef .tc main_v24) = Cert.ReferenceIdeal.Read.val_main_v24 (F := Ideal) (arg3 m c) := by
  show StableHlo.after hostOps0_2 (StableHlo.after hostOps0_1 (StableHlo.after hostOps0 (W0 m ρ c))) (Proc.devRef .tc main_v24) = _
  after_results
  unfold Cert.ReferenceIdeal.Read.val_main_v24
  rfl

/-- The self weights, transposed. -/
theorem wr_eq : W3 m ρ c (Proc.devRef .tc main_v25) = Cert.ReferenceIdeal.Read.val_main_v29 (F := Ideal) (arg5 m c) := by
  show StableHlo.after hostOps0_2 (StableHlo.after hostOps0_1 (StableHlo.after hostOps0 (W0 m ρ c))) (Proc.devRef .tc main_v25) = _
  after_results
  unfold Cert.ReferenceIdeal.Read.val_main_v29
  rfl

/-- The bias as one row: the bias vector re-shaped. -/
theorem b_eq : W3 m ρ c (Proc.devRef .tc main_v26) = shapeCast S1x32 (arg4 m c) shapeCasts_S32_S1x32 := by
  show StableHlo.after hostOps0_2 (StableHlo.after hostOps0_1 (StableHlo.after hostOps0 (W0 m ρ c))) (Proc.devRef .tc main_v26) = _
  after_results
  rfl

end Cert.KernelIdeal.Whole

end
-- ==== Proof.Entry0Msg.lean ====
/-
  The summed neighbour rows the first launch finds.

  Row r of this array is the sum, over the edges whose destination is r, of the input row at the edge's (wrapped)
  source. The program gathers the rows in a narrower float format and widens them before summing; on the extended reals
  both changes of format are the identity, so the array is the reference's stage of the same arguments.
-/
import proofs.«127130_j5153960755249_2_alg».proof.Proof.Gen.KernelIdeal.Frame
import proofs.«127130_j5153960755249_2_alg».proof.Proof.Gen.ReferenceIdeal.Read
import proofs.«127130_j5153960755249_2_alg».proof.Proof.Entry0
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- The summed neighbour rows of the input features. -/
theorem msg_eq : W3 m ρ c (Proc.devRef .tc main_v23) = Cert.ReferenceIdeal.Read.val_main_v21 (F := Ideal) (arg0 m c) (arg1 m c) := by
  show StableHlo.after hostOps0_2 (StableHlo.after hostOps0_1 (StableHlo.after hostOps0 (W0 m ρ c))) (Proc.devRef .tc main_v23) = _
  after_results
  rfl

end Cert.KernelIdeal.Whole

end
-- ==== Proof.RefLayers.lean ====
/-
  The reference's layers read at an entry.

  The array program computes each graph layer as  (aggregated · wlᵀ + b) + x · wrᵀ  where aggregated is the summed
  neighbour rows times the reciprocal degree of the row, followed (layers one and two) by the maximum with 0; and the
  head as three dense layers  x · wᵀ + b, the first two rectified. Each stage is a function of the program's arguments;
  here the six stages are read at an entry in terms of the stages they are computed from.
-/
import proofs.«127130_j5153960755249_2_alg».proof.Proof.Gen.ReferenceIdeal.Read
import proofs.«127130_j5153960755249_2_alg».proof.Proof.LibSage

set_option maxRecDepth 16384

noncomputable section

open scoped BigOperators

namespace Cert.ReferenceIdeal.Layers

open Cert.ReferenceIdeal Cert.ReferenceIdeal.Gen Cert.ReferenceIdeal.Read
open Idealize.ShloMosaic Idealize.ShloMosaic.ValueIdx

variable (x0 : (⟨S100000x64, .f32⟩ : BufTy).Contents (Elt Ideal)) (x1 : (⟨S2x1600000, .i32⟩ : BufTy).Contents (Elt Ideal))
    (x2 : (⟨S100000, .i32⟩ : BufTy).Contents (Elt Ideal))
    (x3 : (⟨S32x64, .f32⟩ : BufTy).Contents (Elt Ideal)) (x4 : (⟨S32, .f32⟩ : BufTy).Contents (Elt Ideal)) (x5 : (⟨S32x64, .f32⟩ : BufTy).Contents (Elt Ideal))
    (x6 : (⟨S48x32, .f32⟩ : BufTy).Contents (Elt Ideal)) (x7 : (⟨S48, .f32⟩ : BufTy).Contents (Elt Ideal)) (x8 : (⟨S48x32, .f32⟩ : BufTy).Contents (Elt Ideal))
    (x9 : (⟨S64x48, .f32⟩ : BufTy).Contents (Elt Ideal)) (x10 : (⟨S64, .f32⟩ : BufTy).Contents (Elt Ideal)) (x11 : (⟨S64x48, .f32⟩ : BufTy).Contents (Elt Ideal))
    (x12 : (⟨S32x64, .f32⟩ : BufTy).Contents (Elt Ideal)) (x13 : (⟨S32, .f32⟩ : BufTy).Contents (Elt Ideal))
    (x14 : (⟨S32x32, .f32⟩ : BufTy).Contents (Elt Ideal)) (x15 : (⟨S32, .f32⟩ : BufTy).Contents (Elt Ideal))
    (x16 : (⟨S10x32, .f32⟩ : BufTy).Contents (Elt Ideal)) (x17 : (⟨S10, .f32⟩ : BufTy).Contents (Elt Ideal))

/-- The first graph layer at entry (r, j). -/
theorem layer1_apply (r : Fin 100000) (j : Fin 32) :
    val_main_v32 (F := Ideal) x0 x1 x3 x4 x5 (ix2 r j)
      = max (Cert.LibSage.layerAt (val_main_v21 (F := Ideal) x0 x1) x0 (val_main_v11 (F := Ideal) x1) (val_main_v24 (F := Ideal) x3)
          (val_main_v29 (F := Ideal) x5) (fun q => x4 (ix1 q)) r j) 0 := by
  unfold val_main_v32 val_main_call1_v0 val_main_call1_cst
  refine (Cert.LibSage.host_relu_apply _ _ _).trans (congrArg (max · 0) ?_)
  unfold val_main_v31 val_main_v28 val_main_v30 val_main_v27 val_main_v26 val_main_v25 val_main_v23 val_main_v22
  exact Cert.LibSage.host_layer dot_S100000x64_S64x32_S100000x32_1_0_0_1_n_n rfl rfl lhs_main_v25_0 lhs_main_v25_1 rhs_main_v25_0 rhs_main_v25_1
    (val_main_v21 (F := Ideal) x0 x1) x0 (val_main_v11 (F := Ideal) x1) (val_main_v24 (F := Ideal) x3) (val_main_v29 (F := Ideal) x5) x4 _ _ _ r j

/-- The second graph layer at entry (r, j). -/
theorem layer2_apply (r : Fin 100000) (j : Fin 48) :
    val_main_v53 (F := Ideal) x0 x1 x3 x4 x5 x6 x7 x8 (ix2 r j)
      = max (Cert.LibSage.layerAt (val_main_v42 (F := Ideal) x0 x1 x3 x4 x5) (val_main_v32 (F := Ideal) x0 x1 x3 x4 x5) (val_main_v11 (F := Ideal) x1)
          (val_main_v45 (F := Ideal) x6) (val_main_v50 (F := Ideal) x8) (fun q => x7 (ix1 q)) r j) 0 := by
  unfold val_main_v53 val_main_call2_v0 val_main_call2_cst
  refine (Cert.LibSage.host_relu_apply _ _ _).trans (congrArg (max · 0) ?_)
  unfold val_main_v52 val_main_v49 val_main_v51 val_main_v48 val_main_v47 val_main_v46 val_main_v44 val_main_v43
  exact Cert.LibSage.host_layer dot_S100000x32_S32x48_S100000x48_1_0_0_1_n_n rfl rfl lhs_main_v46_0 lhs_main_v46_1 rhs_main_v46_0 rhs_main_v46_1
    (val_main_v42 (F := Ideal) x0 x1 x3 x4 x5) (val_main_v32 (F := Ideal) x0 x1 x3 x4 x5) (val_main_v11 (F := Ideal) x1) (val_main_v45 (F := Ideal) x6)
    (val_main_v50 (F := Ideal) x8) x7 _ _ _ r j

/-- The third graph layer (no rectifier) at entry (r, j). -/
theorem layer3_apply (r : Fin 100000) (j : Fin 64) :
    val_main_v73 (F := Ideal) x0 x1 x3 x4 x5 x6 x7 x8 x9 x10 x11 (ix2 r j)
      = Cert.LibSage.layerAt (val_main_v63 (F := Ideal) x0 x1 x3 x4 x5 x6 x7 x8) (val_main_v53 (F := Ideal) x0 x1 x3 x4 x5 x6 x7 x8) (val_main_v11 (F := Ideal) x1)
          (val_main_v66 (F := Ideal) x9) (val_main_v71 (F := Ideal) x11) (fun q => x10 (ix1 q)) r j := by
  unfold val_main_v73 val_main_v70 val_main_v72 val_main_v69 val_main_v68 val_main_v67 val_main_v65 val_main_v64
  exact Cert.LibSage.host_layer dot_S100000x48_S48x64_S100000x64_1_0_0_1_n_n rfl rfl lhs_main_v67_0 lhs_main_v67_1 rhs_main_v67_0 rhs_main_v67_1
    (val_main_v63 (F := Ideal) x0 x1 x3 x4 x5 x6 x7 x8) (val_main_v53 (F := Ideal) x0 x1 x3 x4 x5 x6 x7 x8) (val_main_v11 (F := Ideal) x1) (val_main_v66 (F := Ideal) x9)
    (val_main_v71 (F := Ideal) x11) x10 _ _ _ r j

/-- The head's first dense layer at entry (g, k). -/
theorem head1_apply (g : Fin 64) (k : Fin 32) :
    val_main_v90 (F := Ideal) x0 x1 x2 x3 x4 x5 x6 x7 x8 x9 x10 x11 x12 x13 (ix2 g k)
      = max ((∑ l : Fin 64, val_main_v84 (F := Ideal) x0 x1 x2 x3 x4 x5 x6 x7 x8 x9 x10 x11 (ix2 g l) * val_main_v85 (F := Ideal) x12 (ix2 l k)) + x13 (ix1 k)) 0 := by
  unfold val_main_v90 val_main_call4_v0 val_main_call4_cst val_main_v89 val_main_v88 val_main_v87 val_main_v86
  exact Cert.LibDenseRef.relu_apply dot_S64x64_S64x32_S64x32_1_0_0_1_n_n rfl rfl lhs_main_v86_0 lhs_main_v86_1 rhs_main_v86_0 rhs_main_v86_1
    (val_main_v84 (F := Ideal) x0 x1 x2 x3 x4 x5 x6 x7 x8 x9 x10 x11) (val_main_v85 (F := Ideal) x12) x13 _ _ _ g k

/-- The head's second dense layer at entry (g, k). -/
theorem head2_apply (g : Fin 64) (k : Fin 32) :
    val_main_v96 (F := Ideal) x0 x1 x2 x3 x4 x5 x6 x7 x8 x9 x10 x11 x12 x13 x14 x15 (ix2 g k)
      = max ((∑ l : Fin 32, val_main_v90 (F := Ideal) x0 x1 x2 x3 x4 x5 x6 x7 x8 x9 x10 x11 x12 x13 (ix2 g l) * val_main_v91 (F := Ideal) x14 (ix2 l k)) + x15 (ix1 k)) 0 := by
  unfold val_main_v96 val_main_call5_v0 val_main_call5_cst val_main_v95 val_main_v94 val_main_v93 val_main_v92
  exact Cert.LibDenseRef.relu_apply dot_S64x32_S32x32_S64x32_1_0_0_1_n_n rfl rfl lhs_main_v92_0 lhs_main_v92_1 rhs_main_v92_0 rhs_main_v92_1
    (val_main_v90 (F := Ideal) x0 x1 x2 x3 x4 x5 x6 x7 x8 x9 x10 x11 x12 x13) (val_main_v91 (F := Ideal) x14) x15 _ _ _ g k

/-- The head's last dense layer (no rectifier) at entry (g, o). -/
theorem head3_apply (g : Fin 64) (o : Fin 10) :
    val_main_v101 (F := Ideal) x0 x1 x2 x3 x4 x5 x6 x7 x8 x9 x10 x11 x12 x13 x14 x15 x16 x17 (ix2 g o)
      = (∑ l : Fin 32, val_main_v96 (F := Ideal) x0 x1 x2 x3 x4 x5 x6 x7 x8 x9 x10 x11 x12 x13 x14 x15 (ix2 g l) * val_main_v97 (F := Ideal) x16 (ix2 l o)) + x17 (ix1 o) := by
  unfold val_main_v101 val_main_v100 val_main_v99 val_main_v98
  exact Cert.LibDenseRef.lin_apply dot_S64x32_S32x10_S64x10_1_0_0_1_n_n rfl rfl lhs_main_v98_0 lhs_main_v98_1 rhs_main_v98_0 rhs_main_v98_1
    (val_main_v96 (F := Ideal) x0 x1 x2 x3 x4 x5 x6 x7 x8 x9 x10 x11 x12 x13 x14 x15) (val_main_v97 (F := Ideal) x16) x17 _ _ g o

end Cert.ReferenceIdeal.Layers

end
-- ==== Proof.Out0.lean ====
/-
  The first hidden table.

  The first launch finds the summed neighbour rows, the reciprocal degrees, the input rows, the two transposed weight
  tables and the bias row, each equal to the reference's stage of the same arguments; it leaves in its output array the
  layer's value at every entry, in the order (products first, bias last); the reference's first hidden table has the
  same entries in the order (first product, bias, second product). Addition on the extended reals being commutative
  and associative, the two tables are equal.
-/
import proofs.«127130_j5153960755249_2_alg».proof.Proof.Gen.KernelIdeal.Frame
import proofs.«127130_j5153960755249_2_alg».proof.Proof.Gen.ReferenceIdeal.Read
import proofs.«127130_j5153960755249_2_alg».proof.Proof.Layer0
import proofs.«127130_j5153960755249_2_alg».proof.Proof.Entry0
import proofs.«127130_j5153960755249_2_alg».proof.Proof.Entry0Msg
import proofs.«127130_j5153960755249_2_alg».proof.Proof.RefLayers
import proofs.«127130_j5153960755249_2_alg».proof.Proof.LibKeepdims
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- After the first launch its output array is the reference's first hidden table of the same arguments. -/
theorem h1_eq : W4 m ρ c (Proc.devRef .tc main_v27)
    = Cert.ReferenceIdeal.Read.val_main_v32 (F := Ideal) (arg0 m c) (arg1 m c) (arg3 m c) (arg4 m c) (arg5 m c) := by
  refine (W4_arr m ρ c 6).trans (Cert.KernelIdeal.Layer0.final (V3 m ρ) c _ fun r j => ?_)
  rw [Cert.ReferenceIdeal.Layers.layer1_apply]
  unfold Cert.KernelIdeal.Layer0.value
  have eb : (fun q : Fin 32 => V3 m ρ c main_v26 (ix2 (0 : Fin 1) q)) = fun q => arg4 m c (ix1 q) := funext fun q => by
    rw [show V3 m ρ c main_v26 = _ from b_eq m ρ c]
    exact Cert.LibKeepdims.row_cast_apply (arg4 m c) _ q
  rw [show V3 m ρ c main_v23 = _ from msg_eq m ρ c, show V3 m ρ c main_arg0 = _ from x_eq m ρ c,
    show V3 m ρ c main_v11 = _ from deg_eq m ρ c, show V3 m ρ c main_v24 = _ from wl_eq m ρ c,
    show V3 m ρ c main_v25 = _ from wr_eq m ρ c, eb]

end Cert.KernelIdeal.Whole

end
-- ==== Proof.Entry1.lean ====
/-
  What the second layer's launch finds in its arrays.

  The first launch changes only its output array. The index vectors, the reciprocal degrees and the arguments are as
  before it; its output is the reference's first hidden table. From these the program computes, by the same array
  operations as the reference (but for a change of float format and back around the gather, the identity on the
  extended reals): the first hidden table's neighbour rows summed at the destinations, and the second layer's two
  weight tables transposed and its bias as one row.
-/
import proofs.«127130_j5153960755249_2_alg».proof.Proof.Gen.KernelIdeal.Frame
import proofs.«127130_j5153960755249_2_alg».proof.Proof.Gen.ReferenceIdeal.Read
import proofs.«127130_j5153960755249_2_alg».proof.Proof.Out0
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Past the first launch -/

/-- The source indices are not among the launch's arrays. -/
theorem src_at4 : W4 m ρ c (Proc.devRef .tc main_v1) = Cert.ReferenceIdeal.Read.val_main_v1 (F := Ideal) (arg1 m c) :=
  (W4_of_ne m ρ c main_v1 (by decide)).trans (src_eq m ρ c)
/-- Nor the destination indices. -/
theorem dst_at4 : W4 m ρ c (Proc.devRef .tc main_v3) = Cert.ReferenceIdeal.Read.val_main_v3 (F := Ideal) (arg1 m c) :=
  (W4_of_ne m ρ c main_v3 (by decide)).trans (dst_eq m ρ c)
/-- The reciprocal degrees are an input of the launch: unchanged. -/
theorem deg_at4 : W4 m ρ c (Proc.devRef .tc main_v11) = Cert.ReferenceIdeal.Read.val_main_v11 (F := Ideal) (arg1 m c) :=
  ((W4_arr m ρ c 1).trans (((dat0 (V3 m ρ) c).arrAt_in 1 rfl _).trans (A_eq0 (V3 m ρ) c 1))).trans (deg_eq m ρ c)

theorem arg6_at4 : W4 m ρ c (Proc.devRef .tc main_arg6) = arg6 m c := by
  rw [W4_of_ne m ρ c main_arg6 (by decide)]
  show StableHlo.after hostOps0_2 (StableHlo.after hostOps0_1 (StableHlo.after hostOps0 (W0 m ρ c))) (Proc.devRef .tc main_arg6) = _
  after_results

theorem arg7_at4 : W4 m ρ c (Proc.devRef .tc main_arg7) = arg7 m c := by
  rw [W4_of_ne m ρ c main_arg7 (by decide)]
  show StableHlo.after hostOps0_2 (StableHlo.after hostOps0_1 (StableHlo.after hostOps0 (W0 m ρ c))) (Proc.devRef .tc main_arg7) = _
  after_results

theorem arg8_at4 : W4 m ρ c (Proc.devRef .tc main_arg8) = arg8 m c := by
  rw [W4_of_ne m ρ c main_arg8 (by decide)]
  show StableHlo.after hostOps0_2 (StableHlo.after hostOps0_1 (StableHlo.after hostOps0 (W0 m ρ c))) (Proc.devRef .tc main_arg8) = _
  after_results

/-! ## The arrays of the second launch -/

set_option maxHeartbeats 4000000 in
/-- The summed neighbour rows of the first hidden table. -/
theorem msg2_eq : W5 m ρ c (Proc.devRef .tc main_v39) = Cert.ReferenceIdeal.Read.val_main_v42 (F := Ideal) (arg0 m c) (arg1 m c) (arg3 m c) (arg4 m c) (arg5 m c) := by
  show StableHlo.after hostOps1 (W4 m ρ c) (Proc.devRef .tc main_v39) = _
  after_results
  rw [h1_eq m ρ c, src_at4 m ρ c, dst_at4 m ρ c]
  rfl

/-- The reciprocal degrees. -/
theorem deg2_eq : W5 m ρ c (Proc.devRef .tc main_v11) = Cert.ReferenceIdeal.Read.val_main_v11 (F := Ideal) (arg1 m c) := by
  show StableHlo.after hostOps1 (W4 m ρ c) (Proc.devRef .tc main_v11) = _
  after_results
  exact deg_at4 m ρ c

/-- The nodes' own rows: the first hidden table. -/
theorem x2_eq : W5 m ρ c (Proc.devRef .tc main_v27) = Cert.ReferenceIdeal.Read.val_main_v32 (F := Ideal) (arg0 m c) (arg1 m c) (arg3 m c) (arg4 m c) (arg5 m c) := by
  show StableHlo.after hostOps1 (W4 m ρ c) (Proc.devRef .tc main_v27) = _
  after_results
  exact h1_eq m ρ c

/-- The neighbour weights, transposed. -/
theorem wl2_eq : W5 m ρ c (Proc.devRef .tc main_v40) = Cert.ReferenceIdeal.Read.val_main_v45 (F := Ideal) (arg6 m c) := by
  show StableHlo.after hostOps1 (W4 m ρ c) (Proc.devRef .tc main_v40) = _
  after_results
  rw [arg6_at4 m ρ c]
  unfold Cert.ReferenceIdeal.Read.val_main_v45
  rfl

/-- The self weights, transposed. -/
theorem wr2_eq : W5 m ρ c (Proc.devRef .tc main_v41) = Cert.ReferenceIdeal.Read.val_main_v50 (F := Ideal) (arg8 m c) := by
  show StableHlo.after hostOps1 (W4 m ρ c) (Proc.devRef .tc main_v41) = _
  after_results
  rw [arg8_at4 m ρ c]
  unfold Cert.ReferenceIdeal.Read.val_main_v50
  rfl

/-- The bias as one row. -/
theorem b2_eq : W5 m ρ c (Proc.devRef .tc main_v42) = shapeCast S1x48 (arg7 m c) shapeCasts_S48_S1x48 := by
  show StableHlo.after hostOps1 (W4 m ρ c) (Proc.devRef .tc main_v42) = _
  after_results
  rw [arg7_at4 m ρ c]
  rfl

end Cert.KernelIdeal.Whole

end
-- ==== Proof.Out1.lean ====
/-
  The second hidden table.

  The second launch finds the first hidden table's summed neighbour rows, the reciprocal degrees, the first hidden table,
  the two transposed weight tables and the bias row, each the reference's stage of the same arguments; its output array
  and the reference's second hidden table have the same entries up to the order of the two additions.
-/
import proofs.«127130_j5153960755249_2_alg».proof.Proof.Gen.KernelIdeal.Frame
import proofs.«127130_j5153960755249_2_alg».proof.Proof.Gen.ReferenceIdeal.Read
import proofs.«127130_j5153960755249_2_alg».proof.Proof.Layer1
import proofs.«127130_j5153960755249_2_alg».proof.Proof.Entry1
import proofs.«127130_j5153960755249_2_alg».proof.Proof.RefLayers
import proofs.«127130_j5153960755249_2_alg».proof.Proof.LibKeepdims
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- After the second launch its output array is the reference's second hidden table of the same arguments. -/
theorem h2_eq : W6 m ρ c (Proc.devRef .tc main_v43)
    = Cert.ReferenceIdeal.Read.val_main_v53 (F := Ideal) (arg0 m c) (arg1 m c) (arg3 m c) (arg4 m c) (arg5 m c) (arg6 m c) (arg7 m c) (arg8 m c) := by
  refine (W6_arr m ρ c 6).trans (Cert.KernelIdeal.Layer1.final (V5 m ρ) c _ fun r j => ?_)
  rw [Cert.ReferenceIdeal.Layers.layer2_apply]
  unfold Cert.KernelIdeal.Layer1.value
  have eb : (fun q : Fin 48 => V5 m ρ c main_v42 (ix2 (0 : Fin 1) q)) = fun q => arg7 m c (ix1 q) := funext fun q => by
    rw [show V5 m ρ c main_v42 = _ from b2_eq m ρ c]
    exact Cert.LibKeepdims.row_cast_apply (arg7 m c) _ q
  rw [show V5 m ρ c main_v39 = _ from msg2_eq m ρ c, show V5 m ρ c main_v27 = _ from x2_eq m ρ c,
    show V5 m ρ c main_v11 = _ from deg2_eq m ρ c, show V5 m ρ c main_v40 = _ from wl2_eq m ρ c,
    show V5 m ρ c main_v41 = _ from wr2_eq m ρ c, eb]

end Cert.KernelIdeal.Whole

end
-- ==== Proof.Entry2.lean ====
/-
  What the third layer's launch finds in its arrays.

  The second launch changes only its output array, the reference's second hidden table. From it and from the index
  vectors, the reciprocal degrees and the arguments, all as before, the program computes the second hidden table's
  neighbour rows summed at the destinations, and the third layer's two weight tables transposed and its bias as one row,
  by the reference's operations (but for the change of float format and back around the gather).
-/
import proofs.«127130_j5153960755249_2_alg».proof.Proof.Gen.KernelIdeal.Frame
import proofs.«127130_j5153960755249_2_alg».proof.Proof.Gen.ReferenceIdeal.Read
import proofs.«127130_j5153960755249_2_alg».proof.Proof.Out1
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Past the second launch -/

theorem src_at6 : W6 m ρ c (Proc.devRef .tc main_v1) = Cert.ReferenceIdeal.Read.val_main_v1 (F := Ideal) (arg1 m c) := by
  rw [W6_of_ne m ρ c main_v1 (by decide)]
  show StableHlo.after hostOps1 (W4 m ρ c) (Proc.devRef .tc main_v1) = _
  after_results
  exact src_at4 m ρ c
theorem dst_at6 : W6 m ρ c (Proc.devRef .tc main_v3) = Cert.ReferenceIdeal.Read.val_main_v3 (F := Ideal) (arg1 m c) := by
  rw [W6_of_ne m ρ c main_v3 (by decide)]
  show StableHlo.after hostOps1 (W4 m ρ c) (Proc.devRef .tc main_v3) = _
  after_results
  exact dst_at4 m ρ c
/-- The reciprocal degrees are an input of the second launch: unchanged. -/
theorem deg_at6 : W6 m ρ c (Proc.devRef .tc main_v11) = Cert.ReferenceIdeal.Read.val_main_v11 (F := Ideal) (arg1 m c) :=
  ((W6_arr m ρ c 1).trans (((dat1 (V5 m ρ) c).arrAt_in 1 rfl _).trans (A_eq1 (V5 m ρ) c 1))).trans (deg2_eq m ρ c)

theorem arg9_at6 : W6 m ρ c (Proc.devRef .tc main_arg9) = arg9 m c := by
  rw [W6_of_ne m ρ c main_arg9 (by decide)]
  show StableHlo.after hostOps1 (W4 m ρ c) (Proc.devRef .tc main_arg9) = _
  after_results
  rw [W4_of_ne m ρ c main_arg9 (by decide)]
  show StableHlo.after hostOps0_2 (StableHlo.after hostOps0_1 (StableHlo.after hostOps0 (W0 m ρ c))) (Proc.devRef .tc main_arg9) = _
  after_results

theorem arg10_at6 : W6 m ρ c (Proc.devRef .tc main_arg10) = arg10 m c := by
  rw [W6_of_ne m ρ c main_arg10 (by decide)]
  show StableHlo.after hostOps1 (W4 m ρ c) (Proc.devRef .tc main_arg10) = _
  after_results
  rw [W4_of_ne m ρ c main_arg10 (by decide)]
  show StableHlo.after hostOps0_2 (StableHlo.after hostOps0_1 (StableHlo.after hostOps0 (W0 m ρ c))) (Proc.devRef .tc main_arg10) = _
  after_results

theorem arg11_at6 : W6 m ρ c (Proc.devRef .tc main_arg11) = arg11 m c := by
  rw [W6_of_ne m ρ c main_arg11 (by decide)]
  show StableHlo.after hostOps1 (W4 m ρ c) (Proc.devRef .tc main_arg11) = _
  after_results
  rw [W4_of_ne m ρ c main_arg11 (by decide)]
  show StableHlo.after hostOps0_2 (StableHlo.after hostOps0_1 (StableHlo.after hostOps0 (W0 m ρ c))) (Proc.devRef .tc main_arg11) = _
  after_results

/-! ## The arrays of the third launch -/

set_option maxHeartbeats 4000000 in
/-- The summed neighbour rows of the second hidden table. -/
theorem msg3_eq : W7 m ρ c (Proc.devRef .tc main_v55) = Cert.ReferenceIdeal.Read.val_main_v63 (F := Ideal) (arg0 m c) (arg1 m c) (arg3 m c) (arg4 m c) (arg5 m c) (arg6 m c) (arg7 m c) (arg8 m c) := by
  show StableHlo.after hostOps2 (W6 m ρ c) (Proc.devRef .tc main_v55) = _
  after_results
  rw [h2_eq m ρ c, src_at6 m ρ c, dst_at6 m ρ c]
  rfl

theorem deg3_eq : W7 m ρ c (Proc.devRef .tc main_v11) = Cert.ReferenceIdeal.Read.val_main_v11 (F := Ideal) (arg1 m c) := by
  show StableHlo.after hostOps2 (W6 m ρ c) (Proc.devRef .tc main_v11) = _
  after_results
  exact deg_at6 m ρ c

theorem x3_eq : W7 m ρ c (Proc.devRef .tc main_v43) = Cert.ReferenceIdeal.Read.val_main_v53 (F := Ideal) (arg0 m c) (arg1 m c) (arg3 m c) (arg4 m c) (arg5 m c) (arg6 m c) (arg7 m c) (arg8 m c) := by
  show StableHlo.after hostOps2 (W6 m ρ c) (Proc.devRef .tc main_v43) = _
  after_results
  exact h2_eq m ρ c

theorem wl3_eq : W7 m ρ c (Proc.devRef .tc main_v56) = Cert.ReferenceIdeal.Read.val_main_v66 (F := Ideal) (arg9 m c) := by
  show StableHlo.after hostOps2 (W6 m ρ c) (Proc.devRef .tc main_v56) = _
  after_results
  rw [arg9_at6 m ρ c]
  unfold Cert.ReferenceIdeal.Read.val_main_v66
  rfl

theorem wr3_eq : W7 m ρ c (Proc.devRef .tc main_v57) = Cert.ReferenceIdeal.Read.val_main_v71 (F := Ideal) (arg11 m c) := by
  show StableHlo.after hostOps2 (W6 m ρ c) (Proc.devRef .tc main_v57) = _
  after_results
  rw [arg11_at6 m ρ c]
  unfold Cert.ReferenceIdeal.Read.val_main_v71
  rfl

theorem b3_eq : W7 m ρ c (Proc.devRef .tc main_v58) = shapeCast S1x64 (arg10 m c) shapeCasts_S64_S1x64 := by
  show StableHlo.after hostOps2 (W6 m ρ c) (Proc.devRef .tc main_v58) = _
  after_results
  rw [arg10_at6 m ρ c]
  rfl

end Cert.KernelIdeal.Whole

end
-- ==== Proof.Out2.lean ====
/-
  The third layer's table.

  The third launch (no rectifier) finds the second hidden table's summed neighbour rows, the reciprocal degrees, the
  second hidden table, the two transposed weight tables and the bias row, each the reference's stage of the same
  arguments; its output array and the reference's third table have the same entries up to the order of the additions.
-/
import proofs.«127130_j5153960755249_2_alg».proof.Proof.Gen.KernelIdeal.Frame
import proofs.«127130_j5153960755249_2_alg».proof.Proof.Gen.ReferenceIdeal.Read
import proofs.«127130_j5153960755249_2_alg».proof.Proof.Layer2
import proofs.«127130_j5153960755249_2_alg».proof.Proof.Entry2
import proofs.«127130_j5153960755249_2_alg».proof.Proof.RefLayers
import proofs.«127130_j5153960755249_2_alg».proof.Proof.LibKeepdims
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- After the third launch its output array is the reference's third table of the same arguments. -/
theorem h3_eq : W8 m ρ c (Proc.devRef .tc main_v59)
    = Cert.ReferenceIdeal.Read.val_main_v73 (F := Ideal) (arg0 m c) (arg1 m c) (arg3 m c) (arg4 m c) (arg5 m c) (arg6 m c) (arg7 m c) (arg8 m c) (arg9 m c) (arg10 m c) (arg11 m c) := by
  refine (W8_arr m ρ c 6).trans (Cert.KernelIdeal.Layer2.final (V7 m ρ) c _ fun r j => ?_)
  rw [Cert.ReferenceIdeal.Layers.layer3_apply]
  unfold Cert.KernelIdeal.Layer2.value
  have eb : (fun q : Fin 64 => V7 m ρ c main_v58 (ix2 (0 : Fin 1) q)) = fun q => arg10 m c (ix1 q) := funext fun q => by
    rw [show V7 m ρ c main_v58 = _ from b3_eq m ρ c]
    exact Cert.LibKeepdims.row_cast_apply (arg10 m c) _ q
  rw [show V7 m ρ c main_v55 = _ from msg3_eq m ρ c, show V7 m ρ c main_v43 = _ from x3_eq m ρ c,
    show V7 m ρ c main_v11 = _ from deg3_eq m ρ c, show V7 m ρ c main_v56 = _ from wl3_eq m ρ c,
    show V7 m ρ c main_v57 = _ from wr3_eq m ρ c, eb]

end Cert.KernelIdeal.Whole

end
-- ==== Proof.Entry3.lean ====
/-
  What the head's launch finds in its arrays.

  The third launch changes only its output array, the reference's third table. The program then pools it per graph:
  the rows are summed at their graph index, the graph sizes are counted by a scatter-add of ones and clamped below at 1,
  and each pooled row is divided by its graph's size; and it transposes the head's three weight tables and lays its
  three biases as one-row tables. These are the reference's operations on the same values, so the pooled table is the
  reference's pooled table and the small tables are the reference's.
-/
import proofs.«127130_j5153960755249_2_alg».proof.Proof.Gen.KernelIdeal.Frame
import proofs.«127130_j5153960755249_2_alg».proof.Proof.Gen.ReferenceIdeal.Read
import proofs.«127130_j5153960755249_2_alg».proof.Proof.Out2
import proofs.«127130_j5153960755249_2_alg».proof.Proof.Casts
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Past the three launches: the arguments the head's stretch reads -/

theorem arg2_at8 : W8 m ρ c (Proc.devRef .tc main_arg2) = arg2 m c := by
  rw [W8_of_ne m ρ c main_arg2 (by decide)]
  show StableHlo.after hostOps2 (W6 m ρ c) (Proc.devRef .tc main_arg2) = _
  after_results
  rw [W6_of_ne m ρ c main_arg2 (by decide)]
  show StableHlo.after hostOps1 (W4 m ρ c) (Proc.devRef .tc main_arg2) = _
  after_results
  rw [W4_of_ne m ρ c main_arg2 (by decide)]
  show StableHlo.after hostOps0_2 (StableHlo.after hostOps0_1 (StableHlo.after hostOps0 (W0 m ρ c))) (Proc.devRef .tc main_arg2) = _
  after_results

theorem arg12_at8 : W8 m ρ c (Proc.devRef .tc main_arg12) = arg12 m c := by
  rw [W8_of_ne m ρ c main_arg12 (by decide)]
  show StableHlo.after hostOps2 (W6 m ρ c) (Proc.devRef .tc main_arg12) = _
  after_results
  rw [W6_of_ne m ρ c main_arg12 (by decide)]
  show StableHlo.after hostOps1 (W4 m ρ c) (Proc.devRef .tc main_arg12) = _
  after_results
  rw [W4_of_ne m ρ c main_arg12 (by decide)]
  show StableHlo.after hostOps0_2 (StableHlo.after hostOps0_1 (StableHlo.after hostOps0 (W0 m ρ c))) (Proc.devRef .tc main_arg12) = _
  after_results

theorem arg13_at8 : W8 m ρ c (Proc.devRef .tc main_arg13) = arg13 m c := by
  rw [W8_of_ne m ρ c main_arg13 (by decide)]
  show StableHlo.after hostOps2 (W6 m ρ c) (Proc.devRef .tc main_arg13) = _
  after_results
  rw [W6_of_ne m ρ c main_arg13 (by decide)]
  show StableHlo.after hostOps1 (W4 m ρ c) (Proc.devRef .tc main_arg13) = _
  after_results
  rw [W4_of_ne m ρ c main_arg13 (by decide)]
  show StableHlo.after hostOps0_2 (StableHlo.after hostOps0_1 (StableHlo.after hostOps0 (W0 m ρ c))) (Proc.devRef .tc main_arg13) = _
  after_results

theorem arg14_at8 : W8 m ρ c (Proc.devRef .tc main_arg14) = arg14 m c := by
  rw [W8_of_ne m ρ c main_arg14 (by decide)]
  show StableHlo.after hostOps2 (W6 m ρ c) (Proc.devRef .tc main_arg14) = _
  after_results
  rw [W6_of_ne m ρ c main_arg14 (by decide)]
  show StableHlo.after hostOps1 (W4 m ρ c) (Proc.devRef .tc main_arg14) = _
  after_results
  rw [W4_of_ne m ρ c main_arg14 (by decide)]
  show StableHlo.after hostOps0_2 (StableHlo.after hostOps0_1 (StableHlo.after hostOps0 (W0 m ρ c))) (Proc.devRef .tc main_arg14) = _
  after_results

theorem arg15_at8 : W8 m ρ c (Proc.devRef .tc main_arg15) = arg15 m c := by
  rw [W8_of_ne m ρ c main_arg15 (by decide)]
  show StableHlo.after hostOps2 (W6 m ρ c) (Proc.devRef .tc main_arg15) = _
  after_results
  rw [W6_of_ne m ρ c main_arg15 (by decide)]
  show StableHlo.after hostOps1 (W4 m ρ c) (Proc.devRef .tc main_arg15) = _
  after_results
  rw [W4_of_ne m ρ c main_arg15 (by decide)]
  show StableHlo.after hostOps0_2 (StableHlo.after hostOps0_1 (StableHlo.after hostOps0 (W0 m ρ c))) (Proc.devRef .tc main_arg15) = _
  after_results

theorem arg16_at8 : W8 m ρ c (Proc.devRef .tc main_arg16) = arg16 m c := by
  rw [W8_of_ne m ρ c main_arg16 (by decide)]
  show StableHlo.after hostOps2 (W6 m ρ c) (Proc.devRef .tc main_arg16) = _
  after_results
  rw [W6_of_ne m ρ c main_arg16 (by decide)]
  show StableHlo.after hostOps1 (W4 m ρ c) (Proc.devRef .tc main_arg16) = _
  after_results
  rw [W4_of_ne m ρ c main_arg16 (by decide)]
  show StableHlo.after hostOps0_2 (StableHlo.after hostOps0_1 (StableHlo.after hostOps0 (W0 m ρ c))) (Proc.devRef .tc main_arg16) = _
  after_results

theorem arg17_at8 : W8 m ρ c (Proc.devRef .tc main_arg17) = arg17 m c := by
  rw [W8_of_ne m ρ c main_arg17 (by decide)]
  show StableHlo.after hostOps2 (W6 m ρ c) (Proc.devRef .tc main_arg17) = _
  after_results
  rw [W6_of_ne m ρ c main_arg17 (by decide)]
  show StableHlo.after hostOps1 (W4 m ρ c) (Proc.devRef .tc main_arg17) = _
  after_results
  rw [W4_of_ne m ρ c main_arg17 (by decide)]
  show StableHlo.after hostOps0_2 (StableHlo.after hostOps0_1 (StableHlo.after hostOps0 (W0 m ρ c))) (Proc.devRef .tc main_arg17) = _
  after_results

/-! ## The arrays of the head's launch -/

set_option maxHeartbeats 4000000 in
/-- The pooled graph rows. -/
theorem emb_eq : W11 m ρ c (Proc.devRef .tc main_v70) = Cert.ReferenceIdeal.Read.val_main_v84 (F := Ideal) (arg0 m c) (arg1 m c) (arg2 m c) (arg3 m c) (arg4 m c) (arg5 m c) (arg6 m c) (arg7 m c) (arg8 m c) (arg9 m c) (arg10 m c) (arg11 m c) := by
  show StableHlo.after hostOps3_2 (StableHlo.after hostOps3_1 (StableHlo.after hostOps3 (W8 m ρ c))) (Proc.devRef .tc main_v70) = _
  after_results
  simp only [ofBuf_toBuf, ofBuf_cst_14, ofBuf_v66, toBuf_v67]
  rw [h3_eq m ρ c, arg2_at8 m ρ c]
  unfold Cert.ReferenceIdeal.Read.val_main_v84 Cert.ReferenceIdeal.Read.val_main_v76 Cert.ReferenceIdeal.Read.val_main_v74 Cert.ReferenceIdeal.Read.val_main_cst_11 Cert.ReferenceIdeal.Read.val_main_v75 Cert.ReferenceIdeal.Read.val_main_v83 Cert.ReferenceIdeal.Read.val_main_v82 Cert.ReferenceIdeal.Read.val_main_v81 Cert.ReferenceIdeal.Read.val_main_call3_v1 Cert.ReferenceIdeal.Read.val_main_call3_v0 Cert.ReferenceIdeal.Read.val_main_cst_14 Cert.ReferenceIdeal.Read.val_main_v80 Cert.ReferenceIdeal.Read.val_main_v78 Cert.ReferenceIdeal.Read.val_main_cst_13 Cert.ReferenceIdeal.Read.val_main_v79 Cert.ReferenceIdeal.Read.val_main_v77 Cert.ReferenceIdeal.Read.val_main_cst_12
  rfl

theorem w1_eq : W11 m ρ c (Proc.devRef .tc main_v71) = Cert.ReferenceIdeal.Read.val_main_v85 (F := Ideal) (arg12 m c) := by
  show StableHlo.after hostOps3_2 (StableHlo.after hostOps3_1 (StableHlo.after hostOps3 (W8 m ρ c))) (Proc.devRef .tc main_v71) = _
  after_results
  rw [arg12_at8 m ρ c]
  unfold Cert.ReferenceIdeal.Read.val_main_v85
  rfl

theorem w2_eq : W11 m ρ c (Proc.devRef .tc main_v72) = Cert.ReferenceIdeal.Read.val_main_v91 (F := Ideal) (arg14 m c) := by
  show StableHlo.after hostOps3_2 (StableHlo.after hostOps3_1 (StableHlo.after hostOps3 (W8 m ρ c))) (Proc.devRef .tc main_v72) = _
  after_results
  rw [arg14_at8 m ρ c]
  unfold Cert.ReferenceIdeal.Read.val_main_v91
  rfl

theorem w3_eq : W11 m ρ c (Proc.devRef .tc main_v73) = Cert.ReferenceIdeal.Read.val_main_v97 (F := Ideal) (arg16 m c) := by
  show StableHlo.after hostOps3_2 (StableHlo.after hostOps3_1 (StableHlo.after hostOps3 (W8 m ρ c))) (Proc.devRef .tc main_v73) = _
  after_results
  rw [arg16_at8 m ρ c]
  unfold Cert.ReferenceIdeal.Read.val_main_v97
  rfl

theorem hb1_eq : W11 m ρ c (Proc.devRef .tc main_v74) = shapeCast S1x32 (arg13 m c) shapeCasts_S32_S1x32 := by
  show StableHlo.after hostOps3_2 (StableHlo.after hostOps3_1 (StableHlo.after hostOps3 (W8 m ρ c))) (Proc.devRef .tc main_v74) = _
  after_results
  rw [arg13_at8 m ρ c]
  rfl

theorem hb2_eq : W11 m ρ c (Proc.devRef .tc main_v75) = shapeCast S1x32 (arg15 m c) shapeCasts_S32_S1x32 := by
  show StableHlo.after hostOps3_2 (StableHlo.after hostOps3_1 (StableHlo.after hostOps3 (W8 m ρ c))) (Proc.devRef .tc main_v75) = _
  after_results
  rw [arg15_at8 m ρ c]
  rfl

theorem hb3_eq : W11 m ρ c (Proc.devRef .tc main_v76) = shapeCast S1x10 (arg17 m c) shapeCasts_S10_S1x10 := by
  show StableHlo.after hostOps3_2 (StableHlo.after hostOps3_1 (StableHlo.after hostOps3 (W8 m ρ c))) (Proc.devRef .tc main_v76) = _
  after_results
  rw [arg17_at8 m ρ c]
  rfl

end Cert.KernelIdeal.Whole

end
-- ==== Proof.RefHead.lean ====
/-
  The reference's head read at an entry: its three dense layers chained.
-/
import proofs.«127130_j5153960755249_2_alg».proof.Proof.RefLayers
import proofs.«127130_j5153960755249_2_alg».proof.Proof.LibHead

set_option maxRecDepth 16384

noncomputable section

open scoped BigOperators

namespace Cert.ReferenceIdeal.Layers

open Cert.ReferenceIdeal Cert.ReferenceIdeal.Gen Cert.ReferenceIdeal.Read
open Idealize.ShloMosaic Idealize.ShloMosaic.ValueIdx

variable (x0 : (⟨S100000x64, .f32⟩ : BufTy).Contents (Elt Ideal)) (x1 : (⟨S2x1600000, .i32⟩ : BufTy).Contents (Elt Ideal))
    (x2 : (⟨S100000, .i32⟩ : BufTy).Contents (Elt Ideal))
    (x3 : (⟨S32x64, .f32⟩ : BufTy).Contents (Elt Ideal)) (x4 : (⟨S32, .f32⟩ : BufTy).Contents (Elt Ideal)) (x5 : (⟨S32x64, .f32⟩ : BufTy).Contents (Elt Ideal))
    (x6 : (⟨S48x32, .f32⟩ : BufTy).Contents (Elt Ideal)) (x7 : (⟨S48, .f32⟩ : BufTy).Contents (Elt Ideal)) (x8 : (⟨S48x32, .f32⟩ : BufTy).Contents (Elt Ideal))
    (x9 : (⟨S64x48, .f32⟩ : BufTy).Contents (Elt Ideal)) (x10 : (⟨S64, .f32⟩ : BufTy).Contents (Elt Ideal)) (x11 : (⟨S64x48, .f32⟩ : BufTy).Contents (Elt Ideal))
    (x12 : (⟨S32x64, .f32⟩ : BufTy).Contents (Elt Ideal)) (x13 : (⟨S32, .f32⟩ : BufTy).Contents (Elt Ideal))
    (x14 : (⟨S32x32, .f32⟩ : BufTy).Contents (Elt Ideal)) (x15 : (⟨S32, .f32⟩ : BufTy).Contents (Elt Ideal))
    (x16 : (⟨S10x32, .f32⟩ : BufTy).Contents (Elt Ideal)) (x17 : (⟨S10, .f32⟩ : BufTy).Contents (Elt Ideal))

/-- Entry (g, o) of the reference's result: the three dense layers applied to the pooled table. -/
theorem head_apply (g : Fin 64) (o : Fin 10) :
    val_main_v101 (F := Ideal) x0 x1 x2 x3 x4 x5 x6 x7 x8 x9 x10 x11 x12 x13 x14 x15 x16 x17 (ix2 g o)
      = Cert.LibHead.headAt (val_main_v84 (F := Ideal) x0 x1 x2 x3 x4 x5 x6 x7 x8 x9 x10 x11) (val_main_v85 (F := Ideal) x12) (fun k => x13 (ix1 k))
          (val_main_v91 (F := Ideal) x14) (fun k => x15 (ix1 k)) (val_main_v97 (F := Ideal) x16) (fun k => x17 (ix1 k)) g o := by
  rw [head3_apply]
  unfold Cert.LibHead.headAt
  refine congrArg (· + x17 (ix1 o)) (Finset.sum_congr rfl fun l _ => congrArg (· * val_main_v97 (F := Ideal) x16 (ix2 l o)) ?_)
  rw [head2_apply]
  refine congrArg (max · 0) (congrArg (· + x15 (ix1 l)) (Finset.sum_congr rfl fun k _ => congrArg (· * val_main_v91 (F := Ideal) x14 (ix2 k l)) ?_))
  exact head1_apply x0 x1 x2 x3 x4 x5 x6 x7 x8 x9 x10 x11 x12 x13 g k

end Cert.ReferenceIdeal.Layers

end
-- ==== Proof.Out3.lean ====
/-
  The result.

  The head's launch finds the pooled table, the three transposed weight tables and the three bias rows, each the
  reference's stage of the same arguments; it leaves in its output array the three dense layers' value at every entry,
  which is the entry of the reference's result.
-/
import proofs.«127130_j5153960755249_2_alg».proof.Proof.Gen.KernelIdeal.Frame
import proofs.«127130_j5153960755249_2_alg».proof.Proof.Gen.ReferenceIdeal.Read
import proofs.«127130_j5153960755249_2_alg».proof.Proof.Head
import proofs.«127130_j5153960755249_2_alg».proof.Proof.Entry3
import proofs.«127130_j5153960755249_2_alg».proof.Proof.RefHead
import proofs.«127130_j5153960755249_2_alg».proof.Proof.LibKeepdims
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- After the last launch the result buffer holds the reference's result of the same arguments. -/
theorem out_eq : W12 m ρ c (Proc.devRef .tc main_v77)
    = Cert.ReferenceIdeal.Read.val_main_v101 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) := by
  refine (W12_arr m ρ c 7).trans (Cert.KernelIdeal.Head.final (V11 m ρ) c _ fun g o => ?_)
  rw [Cert.ReferenceIdeal.Layers.head_apply]
  unfold Cert.KernelIdeal.Head.value
  have e1 : (fun k : Fin 32 => V11 m ρ c main_v74 (ix2 (0 : Fin 1) k)) = fun k => arg13 m c (ix1 k) := funext fun k => by
    rw [show V11 m ρ c main_v74 = _ from hb1_eq m ρ c]
    exact Cert.LibKeepdims.row_cast_apply (arg13 m c) _ k
  have e2 : (fun k : Fin 32 => V11 m ρ c main_v75 (ix2 (0 : Fin 1) k)) = fun k => arg15 m c (ix1 k) := funext fun k => by
    rw [show V11 m ρ c main_v75 = _ from hb2_eq m ρ c]
    exact Cert.LibKeepdims.row_cast_apply (arg15 m c) _ k
  have e3 : (fun k : Fin 10 => V11 m ρ c main_v76 (ix2 (0 : Fin 1) k)) = fun k => arg17 m c (ix1 k) := funext fun k => by
    rw [show V11 m ρ c main_v76 = _ from hb3_eq m ρ c]
    exact Cert.LibKeepdims.row_cast_apply (arg17 m c) _ k
  rw [show V11 m ρ c main_v70 = _ from emb_eq m ρ c, show V11 m ρ c main_v71 = _ from w1_eq m ρ c,
    show V11 m ρ c main_v72 = _ from w2_eq m ρ c, show V11 m ρ c main_v73 = _ from w3_eq m ρ c, e1, e2, e3]

end Cert.KernelIdeal.Whole

end
-- ==== Proof.lean ====
/-
  The certificate of a three-layer mean-aggregating graph network with a pooled three-layer head.

  Both programs compute, from node features x, an edge table and a node-to-graph table: the in-degree of every node and
  its reciprocal after a clamp below at 1; three graph layers, each sending a table h to

      (aggregate(h) · Wlᵀ + b) + h · Wrᵀ,     aggregate(h)(r, ·) = (Σ over edges into r of h(source, ·)) · (1 / degree(r)),

  the first two followed by the maximum with 0; the mean of the last table's rows over each graph; and three dense
  layers on the pooled table, the first two rectified. The kernel program does the gathers, the scatter-adds and the
  pooling by the same array operations as the reference (gathering in a narrower float format and widening again, which
  is the identity on the extended reals) and the dense arithmetic in four launches of vector-unit kernels: one per graph
  layer over 20 blocks of 5000 rows, computing (aggregate · wl + h · wr) + b, and one for the head on whole arrays.

  At the ideal values a change of float format is the identity, a product accumulated into zeros is the plain sum, and
  addition on the extended reals is commutative and associative with no side condition, so each launch's output array
  is the reference's table of the same stage, entry by entry, (s + t) + b = (s + b) + t being the only law used between
  the two sides; no finiteness of the inputs is needed. The stages are matched in order: what each launch finds in its
  arrays is the reference's stages of the arguments (Entry0 … Entry3), what it leaves is the next stage (Out0 … Out3),
  and the whole program's run puts the last valuation's contents in the result buffer (RunAll). The frames of the two
  kernel programs are the generated frame certificates; the reference's frame is its generated run with the result
  dropped; the idealization rewrote nothing, so there is nothing to preserve.
-/
import proofs.«127130_j5153960755249_2_alg».proof.Defs
import proofs.«127130_j5153960755249_2_alg».proof.Proof.Gen.Kernel
import proofs.«127130_j5153960755249_2_alg».proof.Proof.Gen.Kernel.Skeleton
import proofs.«127130_j5153960755249_2_alg».proof.Proof.Gen.Kernel.Launch
import proofs.«127130_j5153960755249_2_alg».proof.Proof.Gen.Kernel.Points
import proofs.«127130_j5153960755249_2_alg».proof.Proof.Gen.Kernel.Frame
import proofs.«127130_j5153960755249_2_alg».proof.Proof.Gen.KernelIdeal
import proofs.«127130_j5153960755249_2_alg».proof.Proof.Gen.KernelIdeal.Skeleton
import proofs.«127130_j5153960755249_2_alg».proof.Proof.Gen.KernelIdeal.Launch
import proofs.«127130_j5153960755249_2_alg».proof.Proof.Gen.KernelIdeal.Points
import proofs.«127130_j5153960755249_2_alg».proof.Proof.Gen.KernelIdeal.Frame
import proofs.«127130_j5153960755249_2_alg».proof.Proof.Gen.ReferenceIdeal
import proofs.«127130_j5153960755249_2_alg».proof.Proof.Gen.Pre_finite_inputs
import proofs.«127130_j5153960755249_2_alg».proof.Proof.Gen.ReferenceIdeal.Run
import proofs.«127130_j5153960755249_2_alg».proof.Proof.Gen.ReferenceIdeal.Read
import proofs.«127130_j5153960755249_2_alg».proof.Proof.RunAll
import proofs.«127130_j5153960755249_2_alg».proof.Proof.Out3
import Idealize.ShloMosaic.Adequacy
import Idealize.ShloMosaic.Init

set_option maxRecDepth 16384

noncomputable section

namespace Cert.Proof

open Idealize.ShloMosaic Idealize.ShloMosaic.TcCoe Idealize.SL.Sem Cert.Kernel

/-- The kernel program's run at the ideal values: the result buffer ends at the reference's result function of the
    kernel's own arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v77)
          = Cert.ReferenceIdeal.Read.val_main_v101 (F := Ideal) (Cert.KernelIdeal.Whole.arg0 m c) (Cert.KernelIdeal.Whole.arg1 m c) (Cert.KernelIdeal.Whole.arg2 m c) (Cert.KernelIdeal.Whole.arg3 m c) (Cert.KernelIdeal.Whole.arg4 m c) (Cert.KernelIdeal.Whole.arg5 m c) (Cert.KernelIdeal.Whole.arg6 m c) (Cert.KernelIdeal.Whole.arg7 m c) (Cert.KernelIdeal.Whole.arg8 m c) (Cert.KernelIdeal.Whole.arg9 m c) (Cert.KernelIdeal.Whole.arg10 m c) (Cert.KernelIdeal.Whole.arg11 m c) (Cert.KernelIdeal.Whole.arg12 m c) (Cert.KernelIdeal.Whole.arg13 m c) (Cert.KernelIdeal.Whole.arg14 m c) (Cert.KernelIdeal.Whole.arg15 m c) (Cert.KernelIdeal.Whole.arg16 m c) (Cert.KernelIdeal.Whole.arg17 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run (Cert.KernelIdeal.defs (F := Ideal)) _ _).mono (fun r h c =>
    ⟨(Cert.KernelIdeal.Whole.mem_of_run m ρ h c Cert.KernelIdeal.main_v77 (by decide)).trans (Cert.KernelIdeal.Whole.out_eq m ρ c),
     (Cert.KernelIdeal.Whole.mem_of_run m ρ h c Cert.KernelIdeal.main_arg0 (by decide)).trans (Cert.KernelIdeal.Gen.W12_main_arg0 m ρ c),
     (Cert.KernelIdeal.Whole.mem_of_run m ρ h c Cert.KernelIdeal.main_arg1 (by decide)).trans (Cert.KernelIdeal.Gen.W12_main_arg1 m ρ c),
     (Cert.KernelIdeal.Whole.mem_of_run m ρ h c Cert.KernelIdeal.main_arg2 (by decide)).trans (Cert.KernelIdeal.Gen.W12_main_arg2 m ρ c),
     (Cert.KernelIdeal.Whole.mem_of_run m ρ h c Cert.KernelIdeal.main_arg3 (by decide)).trans (Cert.KernelIdeal.Gen.W12_main_arg3 m ρ c),
     (Cert.KernelIdeal.Whole.mem_of_run m ρ h c Cert.KernelIdeal.main_arg4 (by decide)).trans (Cert.KernelIdeal.Gen.W12_main_arg4 m ρ c),
     (Cert.KernelIdeal.Whole.mem_of_run m ρ h c Cert.KernelIdeal.main_arg5 (by decide)).trans (Cert.KernelIdeal.Gen.W12_main_arg5 m ρ c),
     (Cert.KernelIdeal.Whole.mem_of_run m ρ h c Cert.KernelIdeal.main_arg6 (by decide)).trans (Cert.KernelIdeal.Gen.W12_main_arg6 m ρ c),
     (Cert.KernelIdeal.Whole.mem_of_run m ρ h c Cert.KernelIdeal.main_arg7 (by decide)).trans (Cert.KernelIdeal.Gen.W12_main_arg7 m ρ c),
     (Cert.KernelIdeal.Whole.mem_of_run m ρ h c Cert.KernelIdeal.main_arg8 (by decide)).trans (Cert.KernelIdeal.Gen.W12_main_arg8 m ρ c),
     (Cert.KernelIdeal.Whole.mem_of_run m ρ h c Cert.KernelIdeal.main_arg9 (by decide)).trans (Cert.KernelIdeal.Gen.W12_main_arg9 m ρ c),
     (Cert.KernelIdeal.Whole.mem_of_run m ρ h c Cert.KernelIdeal.main_arg10 (by decide)).trans (Cert.KernelIdeal.Gen.W12_main_arg10 m ρ c),
     (Cert.KernelIdeal.Whole.mem_of_run m ρ h c Cert.KernelIdeal.main_arg11 (by decide)).trans (Cert.KernelIdeal.Gen.W12_main_arg11 m ρ c),
     (Cert.KernelIdeal.Whole.mem_of_run m ρ h c Cert.KernelIdeal.main_arg12 (by decide)).trans (Cert.KernelIdeal.Gen.W12_main_arg12 m ρ c),
     (Cert.KernelIdeal.Whole.mem_of_run m ρ h c Cert.KernelIdeal.main_arg13 (by decide)).trans (Cert.KernelIdeal.Gen.W12_main_arg13 m ρ c),
     (Cert.KernelIdeal.Whole.mem_of_run m ρ h c Cert.KernelIdeal.main_arg14 (by decide)).trans (Cert.KernelIdeal.Gen.W12_main_arg14 m ρ c),
     (Cert.KernelIdeal.Whole.mem_of_run m ρ h c Cert.KernelIdeal.main_arg15 (by decide)).trans (Cert.KernelIdeal.Gen.W12_main_arg15 m ρ c),
     (Cert.KernelIdeal.Whole.mem_of_run m ρ h c Cert.KernelIdeal.main_arg16 (by decide)).trans (Cert.KernelIdeal.Gen.W12_main_arg16 m ρ c),
     (Cert.KernelIdeal.Whole.mem_of_run m ρ h c Cert.KernelIdeal.main_arg17 (by decide)).trans (Cert.KernelIdeal.Gen.W12_main_arg17 m ρ c)⟩)
    (Cert.KernelIdeal.Whole.run_all m ρ)

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the reference's result function of
    the (common) arguments. -/
theorem algebraic : Cert.algebraic_KernelIdeal_ReferenceIdeal := by
  intro m ρ m' ρ' _ hagree
  refine ⟨fun c => Cert.ReferenceIdeal.Read.val_main_v101 (F := Ideal) (Cert.KernelIdeal.Whole.arg0 m c) (Cert.KernelIdeal.Whole.arg1 m c) (Cert.KernelIdeal.Whole.arg2 m c) (Cert.KernelIdeal.Whole.arg3 m c) (Cert.KernelIdeal.Whole.arg4 m c) (Cert.KernelIdeal.Whole.arg5 m c) (Cert.KernelIdeal.Whole.arg6 m c) (Cert.KernelIdeal.Whole.arg7 m c) (Cert.KernelIdeal.Whole.arg8 m c) (Cert.KernelIdeal.Whole.arg9 m c) (Cert.KernelIdeal.Whole.arg10 m c) (Cert.KernelIdeal.Whole.arg11 m c) (Cert.KernelIdeal.Whole.arg12 m c) (Cert.KernelIdeal.Whole.arg13 m c) (Cert.KernelIdeal.Whole.arg14 m c) (Cert.KernelIdeal.Whole.arg15 m c) (Cert.KernelIdeal.Whole.arg16 m c) (Cert.KernelIdeal.Whole.arg17 m c), kernel_run m ρ, ?_⟩
  refine (θ_run Cert.ReferenceIdeal.defs _ _).mono (fun r h c => ⟨?_, (h c).2⟩) (Cert.ReferenceIdeal.Value.run (F := Ideal) m' ρ')
  obtain ⟨e0, e1, e2, e3, e4, e5, e6, e7, e8, e9, e10, e11, e12, e13, e14, e15, e16, e17⟩ := hagree c
  rw [(h c).1, Cert.ReferenceIdeal.Read.val_main_v101_eq, e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
